-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x768x384 : Shape := ⟨3, ![1, 768, 384]⟩
abbrev S1x768x768x128 : Shape := ⟨4, ![1, 768, 768, 128]⟩
abbrev S768x128 : Shape := ⟨2, ![768, 128]⟩
abbrev S128 : Shape := ⟨1, ![128]⟩
abbrev S_ : Shape := ⟨0, ![]⟩

class Facts : Prop where
  bcast_S_S1x768x384 : S_.BroadcastsInDim S1x768x384 (![] : Fin 0 → Fin S1x768x384.rank)
  reducesTo_S1x768x384_S_d0_1_2 : S1x768x384.ReducesTo [0, 1, 2] S_
  h_S_ : 0 < S_.numel
  bcast_S_S1x768x768x128 : S_.BroadcastsInDim S1x768x768x128 (![] : Fin 0 → Fin S1x768x768x128.rank)
  reducesTo_S1x768x768x128_S_d0_1_2_3 : S1x768x768x128.ReducesTo [0, 1, 2, 3] S_
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S1x768x384 .f32) (main_arg1 : FVec F S1x768x768x128 .f32) (main_arg2 : FVec F S768x128 .f32) (main_arg3 : FVec F S128 .f32) : IVec S_ 1 :=
  let main_v0 : FVec F S1x768x384 .f32 := Host.absf main_arg0
  let main_cst : FVec F S_ .f32 := constant S_ .f32 0x7F800000#32
  let main_v1 : FVec F S1x768x384 .f32 := broadcastInDim S1x768x384 ![] bcast_S_S1x768x384 main_cst
  let main_v2 : IVec S1x768x384 1 := cmpf .olt main_v0 main_v1
  let main_c : IVec S_ 1 := constantI S_ 1 1#1
  let main_v3 : IVec S_ 1 := (fun x v => Host.reduce IntOp.andi x v reducesTo_S1x768x384_S_d0_1_2 h_S_) main_v2 main_c
  let main_v4 : FVec F S1x768x768x128 .f32 := Host.absf main_arg1
  let main_cst_0 : FVec F S_ .f32 := constant S_ .f32 0x7F800000#32
  let main_v5 : FVec F S1x768x768x128 .f32 := broadcastInDim S1x768x768x128 ![] bcast_S_S1x768x768x128 main_cst_0
  let main_v6 : IVec S1x768x768x128 1 := cmpf .olt main_v4 main_v5
  let main_c_1 : IVec S_ 1 := constantI S_ 1 1#1
  let main_v7 : IVec S_ 1 := (fun x v => Host.reduce IntOp.andi x v reducesTo_S1x768x768x128_S_d0_1_2_3 h_S_) main_v6 main_c_1
  let main_v8 : IVec S_ 1 := andi main_v3 main_v7
  let main_v9 : FVec F S768x128 .f32 := Host.absf main_arg2
  let main_cst_2 : FVec F S_ .f32 := constant S_ .f32 0x7F800000#32
  let main_v10 : FVec F S768x128 .f32 := broadcastInDim S768x128 ![] bcast_S_S768x128 main_cst_2
  let main_v11 : IVec S768x128 1 := cmpf .olt main_v9 main_v10
  let main_c_3 : IVec S_ 1 := constantI S_ 1 1#1
  let main_v12 : IVec S_ 1 := (fun x v => Host.reduce IntOp.andi x v reducesTo_S768x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S1x768x384 : Shape := ⟨3, ![1, 768, 384]⟩
abbrev S1x768x768x128 : Shape := ⟨4, ![1, 768, 768, 128]⟩
abbrev S768x128 : Shape := ⟨2, ![768, 128]⟩
abbrev S128 : Shape := ⟨1, ![128]⟩
abbrev S384x128 : Shape := ⟨2, ![384, 128]⟩
abbrev S1x128 : Shape := ⟨2, ![1, 128]⟩
abbrev S1x128x384 : Shape := ⟨3, ![1, 128, 384]⟩
abbrev S1x256x384 : Shape := ⟨3, ![1, 256, 384]⟩
abbrev S1x128x256x128 : Shape := ⟨4, ![1, 128, 256, 128]⟩
abbrev S128x128 : Shape := ⟨2, ![128, 128]⟩
abbrev S128x384 : Shape := ⟨2, ![128, 384]⟩
abbrev S256x384 : Shape := ⟨2, ![256, 384]⟩
abbrev S256x128 : Shape := ⟨2, ![256, 128]⟩
abbrev S1x256x128 : Shape := ⟨3, ![1, 256, 128]⟩
abbrev S8x128 : Shape := ⟨2, ![8, 128]⟩
abbrev S8x1x128 : Shape := ⟨3, ![8, 1, 128]⟩
abbrev S8x256x128 : Shape := ⟨3, ![8, 256, 128]⟩
abbrev S1x8x256x128 : Shape := ⟨4, ![1, 8, 256, 128]⟩

abbrev nBuf : Space → Nat
  | .hbm => 8
  | .vmem => 10
  | .smem => 0
  | _ => 0

abbrev bufTy : (tb : Table) → Fin (tcTables nBuf tb) → BufTy
  | .hbm, ⟨0, _⟩ => ⟨S1x768x384, .f32⟩
  | .hbm, ⟨1, _⟩ => ⟨S1x768x768x128, .f32⟩
  | .hbm, ⟨2, _⟩ => ⟨S768x128, .f32⟩
  | .hbm, ⟨3, _⟩ => ⟨S128, .f32⟩
  | .hbm, ⟨4, _⟩ => ⟨S384x128, .f32⟩
  | .hbm, ⟨5, _⟩ => ⟨S384x128, .f32⟩
  | .hbm, ⟨6, _⟩ => ⟨S1x128, .f32⟩
  | .hbm, ⟨7, _⟩ => ⟨S1x768x768x128, .f32⟩
  | .local _ .vmem, ⟨0, _⟩ => ⟨S1x128x384, .f32⟩
  | .local _ .vmem, ⟨1, _⟩ => ⟨S1x128x384, .f32⟩
  | .local _ .vmem, ⟨2, _⟩ => ⟨S1x256x384, .f32⟩
  | .local _ .vmem, ⟨3, _⟩ => ⟨S1x256x384, .f32⟩
  | .local _ .vmem, ⟨4, _⟩ => ⟨S384x128, .f32⟩
  | .local _ .vmem, ⟨5, _⟩ => ⟨S384x128, .f32⟩
  | .local _ .vmem, ⟨6, _⟩ => ⟨S1x128, .f32⟩
  | .local _ .vmem, ⟨7, _⟩ => ⟨S1x128x256x128, .f32⟩
  | .local _ .vmem, ⟨8, _⟩ => ⟨S1x128x256x128, .f32⟩
  | .local _ .vmem, ⟨9, _⟩ => ⟨S128x128, .f32⟩
  | _, _ => ⟨S1x768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![6, 3], ![false, false]⟩

@[reducible] def k0_t1_loop : Scf.Loop 32 :=
  let c0_i32 : BitVec 32 := 0#32
  let c16_i32 : BitVec 32 := 16#32
  let v22 : BitVec 32 := Scalar.addi c0_i32 c16_i32
  let c1_i32 : BitVec 32 := 1#32
  ⟨c0_i32, v22, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32 : BitVec 32 := 8#32
  let v23 : BitVec 32 := Scalar.muli arg9 c8_i32
  v23
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v23 : BitVec 32 := Scalar.muli arg9 c8_i32
  let v24 : BitVec 32 := v23
  let v25 : Index := Scalar.indexCast v24
  let c0_15 : Index := 0#32
  ![v25.toNat, 0]
def k0_off2 (k0_t1 : Fin k0_t1_loop.trips) : Fin 4 → Nat :=
  let c0_16 : Index := 0#32
  let c0_i32 : BitVec 32 := 0#32
  let c1_i32 : BitVec 32 := 1#32
  let arg9 : BitVec 32 := Scf.iv c0_i32 c1_i32 k0_t1
  let c8_i32 : BitVec 32 := 8#32
  let v23 : BitVec 32 := Scalar.muli arg9 c8_i32
  let v24 : BitVec 32 := v23
  let v31 : Index := Scalar.indexCast v24
  let c0_17 : Index := 0#32
  let c0_18 : Index := 0#32
  ![0, v31.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S768x128_S384x128_0_0 : S768x128.Slices ![0, 0] S384x128
  slices_S768x128_S384x128_384_0 : S768x128.Slices ![384, 0] S384x128
  shapeCasts_S128_S1x128 : S128.ShapeCasts S1x128
  inb_S1x128x384_S1x128x384_0_0_0 : ∀ a, (![0, 0, 0] : Fin 3 → Nat) a + S1x128x384.size a ≤ S1x128x384.size a
  h_S1x128x384 : 0 < S1x128x384.numel
  shapeCasts_S1x128x384_S128x384 : S1x128x384.ShapeCasts S128x384
  bitsLt_bf16_f32 : FTy.bits .bf16 < FTy.bits .f32
  inb_S1x256x384_S1x256x384_0_0_0 : ∀ a, (![0, 0, 0] : Fin 3 → Nat) a + S1x256x384.size a ≤ S1x256x384.size a
  h_S1x256x384 : 0 < S1x256x384.numel
  shapeCasts_S1x256x384_S256x384 : S1x256x384.ShapeCasts S256x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  shapeCasts_S256x128_S1x256x128 : S256x128.ShapeCasts S1x256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S8x128 : 0 < S8x128.numel
  shapeCasts_S8x128_S8x1x128 : S8x128.ShapeCasts S8x1x128
  broadcasts_S8x1x128_S8x256x128 : S8x1x128.Broadcasts S8x256x128
  broadcasts_S1x256x128_S8x256x128 : S1x256x128.Broadcasts S8x256x128
  h_S1x8x256x128 : 0 < S1x8x256x128.numel
  shapeCasts_S1x8x256x128_S8x256x128 : S1x8x256x128.ShapeCasts S8x256x128
  shapeCasts_S8x256x128_S1x8x256x128 : S8x256x128.ShapeCasts S1x8x256x128
  dot_S128x384_S384x128_S128x128_1_0_0_1_n_n_wf : DotDims.WF S128x384 S384x128 S128x128 [1] [0] [0] [1] [] []
  dot_S256x384_S384x128_S256x128_1_0_0_1_n_n_wf : DotDims.WF S256x384 S384x128 S256x128 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x128.size a ≤ S128x128.size a
  k0_off2_inb : ∀ k0_t1 : Fin k0_t1_loop.trips, ∀ a, (k0_off2 k0_t1) a + S1x8x256x128.size a ≤ S1x128x256x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x384.size a ≤ S1x768x384.size a
  hwx0_0 : ∀ i : grid0.Coords, EltTy.bits .f32 = 32 ∨ (Rect.block (s := S1x768x384) S1x128x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x384.size a ≤ S1x768x384.size a
  hwx0_1 : ∀ i : grid0.Coords, EltTy.bits .f32 = 32 ∨ (Rect.block (s := S1x768x384) S1x256x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x128.size a ≤ S384x128.size a
  hwx0_2 : ∀ i : grid0.Coords, EltTy.bits .f32 = 32 ∨ (Rect.block (s := S384x128) S384x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x256x128.size a ≤ S1x768x768x128.size a
  hwx0_5 : ∀ i : grid0.Coords, EltTy.bits .f32 = 32 ∨ (Rect.block (s := S1x768x768x128) S1x128x256x128.size (cc0_transform_5 i) (hinb0_5 i)).WholeWords (EltTy.packing .f32)

variable [Facts₀]

def dot_S128x384_S384x128_S128x128_1_0_0_1_n_n : DotDims S128x384 S384x128 S128x128 where
  lhsContracting := [1]
  rhsContracting := [0]
  lhsNonContracting := [0]
  rhsNonContracting := [1]
  lhsBatch := []
  rhsBatch := []
  wf := dot_S128x384_S384x128_S128x128_1_0_0_1_n_n_wf
def dot_S256x384_S384x128_S256x128_1_0_0_1_n_n : DotDims S256x384 S384x128 S256x128 where
  lhsContracting := [1]
  rhsContracting := [0]
  lhsNonContracting := [0]
  rhsNonContracting := [1]
  lhsBatch := []
  rhsBatch := []
  wf := dot_S256x384_S384x128_S256x128_1_0_0_1_n_n_wf

abbrev win0_0 : Pipeline.Window sig grid0 :=
  Pipeline.Window.ofSpec (Memref.whole main_arg0) S1x128x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S384x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128x256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x768x384 : Shape := ⟨3, ![1, 768, 384]⟩
abbrev S1x768x768x128 : Shape := ⟨4, ![1, 768, 768, 128]⟩
abbrev S768x128 : Shape := ⟨2, ![768, 128]⟩
abbrev S128 : Shape := ⟨1, ![128]⟩
abbrev S384x128 : Shape := ⟨2, ![384, 128]⟩
abbrev S1x768x128 : Shape := ⟨3, ![1, 768, 128]⟩
abbrev S1x768x1x128 : Shape := ⟨4, ![1, 768, 1, 128]⟩
abbrev S1x1x768x128 : Shape := ⟨4, ![1, 1, 768, 128]⟩
abbrev S1x1x1x128 : Shape := ⟨4, ![1, 1, 1, 128]⟩

abbrev nBuf : Space → Nat
  | .hbm => 16
  | .vmem => 0
  | .smem => 0
  | _ => 0

abbrev bufTy : (tb : Table) → Fin (tcTables nBuf tb) → BufTy
  | .hbm, ⟨0, _⟩ => ⟨S1x768x384, .f32⟩
  | .hbm, ⟨1, _⟩ => ⟨S1x768x768x128, .f32⟩
  | .hbm, ⟨2, _⟩ => ⟨S768x128, .f32⟩
  | .hbm, ⟨3, _⟩ => ⟨S128, .f32⟩
  | .hbm, ⟨4, _⟩ => ⟨S384x128, .f32⟩
  | .hbm, ⟨5, _⟩ => ⟨S384x128, .f32⟩
  | .hbm, ⟨6, _⟩ => ⟨S1x768x128, .f32⟩
  | .hbm, ⟨7, _⟩ => ⟨S1x768x128, .f32⟩
  | .hbm, ⟨8, _⟩ => ⟨S1x768x1x128, .f32⟩
  | .hbm, ⟨9, _⟩ => ⟨S1x1x768x128, .f32⟩
  | .hbm, ⟨10, _⟩ => ⟨S1x768x768x128, .f32⟩
  | .hbm, ⟨11, _⟩ => ⟨S1x768x768x128, .f32⟩
  | .hbm, ⟨12, _⟩ => ⟨S1x768x768x128, .f32⟩
  | .hbm, ⟨13, _⟩ => ⟨S1x1x1x128, .f32⟩
  | .hbm, ⟨14, _⟩ => ⟨S1x768x768x128, .f32⟩
  | .hbm, ⟨15, _⟩ => ⟨S1x768x768x128, .f32⟩
  | _, _ => ⟨S1x768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  slices_S768x128_S384x128_0_0 : S768x128.Slices ![0, 0] S384x128
  slices_S768x128_S384x128_384_0 : S768x128.Slices ![384, 0] S384x128
  bcast_S1x768x128_S1x768x1x128_0_1_3 : S1x768x128.BroadcastsInDim S1x768x1x128 (![0, 1, 3] : Fin 3 → Fin S1x768x1x128.rank)
  bcast_S1x768x128_S1x1x768x128_0_2_3 : S1x768x128.BroadcastsInDim S1x1x768x128 (![0, 2, 3] : Fin 3 → Fin S1x1x768x128.rank)
  bcast_S1x768x1x128_S1x768x768x128_0_1_2_3 : S1x768x1x128.BroadcastsInDim S1x768x768x128 (![0, 1, 2, 3] : Fin 4 → Fin S1x768x768x128.rank)
  bcast_S1x1x768x128_S1x768x768x128_0_1_2_3 : S1x1x768x128.BroadcastsInDim S1x768x768x128 (![0, 1, 2, 3] : Fin 4 → Fin S1x768x768x128.rank)
  bcast_S128_S1x1x1x128_3 : S128.BroadcastsInDim S1x1x1x128 (![3] : Fin 1 → Fin S1x1x1x128.rank)
  bcast_S1x1x1x128_S1x768x768x128_0_1_2_3 : S1x1x1x128.BroadcastsInDim S1x768x768x128 (![0, 1, 2, 3] : Fin 4 → Fin S1x768x768x128.rank)
  dot_S1x768x384_S384x128_S1x768x128_2_0_01_1_n_n_wf : DotDims.WF S1x768x384 S384x128 S1x768x128 [2] [0] [0, 1] [1] [] []

variable [Facts₀]

def dot_S1x768x384_S384x128_S1x768x128_2_0_01_1_n_n : DotDims S1x768x384 S384x128 S1x768x128 where
  lhsContracting := [2]
  rhsContracting := [0]
  lhsNonContracting := [0, 1]
  rhsNonContracting := [1]
  lhsBatch := []
  rhsBatch := []
  wf := dot_S1x768x384_S384x128_S1x768x128_2_0_01_1_n_n_wf

class Facts : Prop extends Facts₀ where

variable [Facts]
-- ==== Proof.BitsKit.lean ====
/-
  The launch side of the frame: the arrays as the pair-update region finds them. Before the region @main slices the
  weights into their upper and lower halves and reshapes the bias to a row; the region is then entered with the
  argument arrays as launched and those three results beside them. A window's block at a grid point is read off its
  array there; an input window's staging buffer holds that block whenever the body runs, whether the point fetched it
  or an earlier one did (the block index has not moved since).
-/
import proofs.«122135_j48524540510542_2_alg».proof.Proof.Gen.Kernel.Launch
import proofs.«122135_j48524540510542_2_alg».proof.Proof.Gen.Kernel.Skeleton
import proofs.«122135_j48524540510542_2_alg».proof.Proof.Gen.Kernel.Loops
import proofs.«122135_j48524540510542_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two slices of the weights and the reshape of the bias. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main up to the region: the three host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, spelled as the pipeline passes it, and its wholeness. -/
abbrev ms0 (t : Fin cfg0.N) : Memref sig .tc .vmem S1x128x384 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x384 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S384x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S384x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128x256x128 .f32 := win0_5.stage (cfg0.slots t 5)
abbrev hs5 (t : Fin cfg0.N) : (ms5 t).IsWhole := hstage0_5 ((cfg0.slots t 5).cast nbuf0_5)
/-- The kernel's scratch: one whole buffer. -/
abbrev msS : Memref sig .tc .vmem S128x128 .f32 := Memref.whole cc0_scratch0
abbrev hsS : (msS).IsWhole := Memref.isWhole_whole _

end Cert.Kernel.Frm

end
-- ==== Proof.BitsRun.lean ====
/-
  The pair-update body on whole staging buffers. It loads the two row blocks, the two halves of the weights and the
  bias row; stores the first projection (128 rows by 128 features) into its scratch; then, sixteen times, loads eight
  rows of that scratch back and stores the eight corresponding row planes of the output block — each plane the eight
  scratch rows spread along the column axis plus the second projection (with the bias) spread along the row axis. The
  run is stated as a subtype: the pieces the output buffer ends with are the witness the run itself finds, so nothing
  of the arithmetic is transcribed here.
-/
import proofs.«122135_j48524540510542_2_alg».proof.Proof.BitsKit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave in the output's staging memref, as pieces (last first), with the proof that on whole
    staging memrefs — the inputs' at their contents, the output's and the scratch at anything — the body runs to the
    continuation holding the inputs' as they were, the output's buffer with those pieces written and the scratch at
    something. -/
noncomputable def kernelRun (c : Dev nD) (i : grid0.Coords) (arg2 : Memref sig .tc .vmem S1x128x384 .f32) (harg2 : arg2.IsWhole) (arg3 : Memref sig .tc .vmem S1x256x384 .f32) (harg3 : arg3.IsWhole) (arg4 : Memref sig .tc .vmem S384x128 .f32) (harg4 : arg4.IsWhole) (arg5 : Memref sig .tc .vmem S384x128 .f32) (harg5 : arg5.IsWhole) (arg6 : Memref sig .tc .vmem S1x128 .f32) (harg6 : arg6.IsWhole) (arg7 : Memref sig .tc .vmem S1x128x256x128 .f32) (harg7 : arg7.IsWhole) (arg8 : Memref sig .tc .vmem S128x128 .f32) (harg8 : arg8.IsWhole)
    (x0 : Vec F S1x128x384 .f32) (x1 : Vec F S1x256x384 .f32) (x2 : Vec F S384x128 .f32) (x3 : Vec F S384x128 .f32) (x4 : Vec F S1x128 .f32) :
    { L5 : List (View.Piece (Elt F) S1x128x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ (∃ f, arg8.view.loc (c : Thread nD τ) ↦[arg8.view.set]{fullShare} f)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} f)) -∗ K ⟨⟩))
          ⊢ wp frame (wpE (defs₀ (F := F)) Variants.none c none) E (cc0__pair_update_kernel i arg2 harg2 arg3 harg3 arg4 harg4 arg5 harg5 arg6 harg6 arg7 harg7 arg8 harg8) K } := by
  refine ⟨?_, fun E K => ?run⟩
  case run =>
    simp only [cc0__pair_update_kernel_eq_skeleton]; unfold cc0__pair_update_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, H8⟩, Hk⟩
    obtain rfl := harg2.eq_unread hf0
    obtain rfl := harg3.eq_unread hf1
    obtain rfl := harg4.eq_unread hf2
    obtain rfl := harg5.eq_unread hf3
    obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact H8

end Cert.Kernel.Frm

end
-- ==== Proof.BitsBlock.lean ====
/-
  What the pair-update body leaves in the output block, as one function of the five input blocks. With `P` the first
  projection (the row block times the upper weights: 128 rows by 128 features), row plane `r` of the block is rows
  `8·(r / 8) … 8·(r / 8) + 7` of `P` spread along the columns, plus the second projection with the bias spread along the
  rows, read at row `r % 8` of that group of eight: the body writes the block eight row planes at a time, in sixteen
  trips, and `planes … k` is what trip `k` writes.
-/
import proofs.«122135_j48524540510542_2_alg».proof.Proof.Gen.Kernel.Skeleton
import Idealize.ShloMosaic.Lib.Pipeline.FrameBody
import Idealize.ShloMosaic.Lib.ValueIdx

noncomputable section

namespace Cert.Kernel.Frm

open Cert.Kernel Cert.Kernel.Gen
open Idealize.ShloMosaic Idealize.ShloMosaic.ValueIdx

variable {F : FTy → Type} [FloatOps F]

/-- The loop makes sixteen trips. -/
theorem trips_eq : k0_t1_loop.trips = 16 := by decide +kernel

/-- The eight row planes trip `k` writes: the second projection plus bias, and rows `8k … 8k+7` of the first. -/
def planes (x0 : Vec F S1x128x384 .f32) (x1 : Vec F S1x256x384 .f32) (x2 x3 : Vec F S384x128 .f32) (x4 : Vec F S1x128 .f32)
    (k : Fin k0_t1_loop.trips) : FVec F S1x8x256x128 .f32 :=
  k0_pay2 x1 x3 x4 (View.ld (k0_pay1 x0 x2) (Rect.unit (s := S128x128) (k0_off1 k) S8x128.size (k0_off1_inb k)))

/-- The trip that writes row plane `r` of the block. -/
def tripOf (r : Fin 128) : Fin k0_t1_loop.trips := ⟨r.val / 8, by rw [trips_eq]; have := r.isLt; omega⟩

/-- The output block after the body: entry `(0, r, c, f)` is entry `(0, r % 8, c, f)` of the planes of trip `r / 8`. -/
def blockOut (x0 : Vec F S1x128x384 .f32) (x1 : Vec F S1x256x384 .f32) (x2 x3 : Vec F S384x128 .f32) (x4 : Vec F S1x128 .f32) :
    Vec F S1x128x256x128 .f32 :=
  fun y => planes x0 x1 x2 x3 x4 (tripOf (y 1))
    (ix4 (0 : Fin 1) (⟨(y 1).val % 8, Nat.mod_lt _ (by decide)⟩ : Fin 8) (y 2) (y 3))

end Cert.Kernel.Frm

end
-- ==== Proof.BitsPieces.lean ====
/-
  The pieces the body's sixteen trips leave in the output block, read back. Trip `k` stores one piece: row planes
  `8k … 8k+7` of the block, all columns and features, holding `planes … k`. The pieces of the trips before `n` are exactly
  those of `k < n`; after the last trip every index of the block lies under the piece of trip `r / 8` (`r` its row plane),
  and every piece agrees there with the one function `blockOut`. So whatever the buffer held before, after the body it
  reads `blockOut` of the five input blocks.
-/
import proofs.«122135_j48524540510542_2_alg».proof.Proof.BitsRun
import proofs.«122135_j48524540510542_2_alg».proof.Proof.BitsBlock
import Idealize.ShloMosaic.Lib.Pipeline.Value

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

section Pieces

variable (𝒱 : Variants) (c : Dev nD) (bd : Option 𝒱.V) (i : grid0.Coords) (arg2 : Memref sig .tc .vmem S1x128x384 .f32) (harg2 : arg2.IsWhole) (arg3 : Memref sig .tc .vmem S1x256x384 .f32) (harg3 : arg3.IsWhole) (arg4 : Memref sig .tc .vmem S384x128 .f32) (harg4 : arg4.IsWhole) (arg5 : Memref sig .tc .vmem S384x128 .f32) (harg5 : arg5.IsWhole) (arg6 : Memref sig .tc .vmem S1x128 .f32) (harg6 : arg6.IsWhole) (arg7 : Memref sig .tc .vmem S1x128x256x128 .f32) (harg7 : arg7.IsWhole) (arg8 : Memref sig .tc .vmem S128x128 .f32) (harg8 : arg8.IsWhole)
  (v3 : Vec F S1x256x384 .f32) (v9 : Vec F S384x128 .f32) (v14 : Vec F S1x128 .f32) (X8 : BufTy.Contents (Elt F) arg8.view.ty)

/-- The piece trip `k` stores: its eight row planes, computed from the scratch rows it loads. -/
def tripPiece (k : Fin k0_t1_loop.trips) : View.Piece (Elt F) S1x128x256x128 .f32 :=
  ⟨Rect.unit (s := S1x128x256x128) (k0_off2 k) S1x8x256x128.size (k0_off2_inb k),
    k0_pay2 v3 v9 v14 (View.readAt (Elt F) arg8.view (Rect.unit (s := S128x128) (k0_off1 k) S8x128.size (k0_off1_inb k)).toLoadRect X8)⟩

/-- One trip stores exactly that piece. -/
theorem tripL_eq (k : Fin k0_t1_loop.trips) :
    tripL_k0_t1 (F := F) 𝒱 c bd i arg2 harg2 arg3 harg3 arg4 harg4 arg5 harg5 arg6 harg6 arg7 harg7 arg8 harg8 v3 v9 v14 X8 k = [tripPiece arg8 v3 v9 v14 X8 k] := by
  unfold tripL_k0_t1 trip_k0_t1
  rfl

/-- The pieces of the trips before `n` are those of the trips `k < n`. -/
theorem mem_pb (n : ℕ) (hn : n ≤ k0_t1_loop.trips) (p : View.Piece (Elt F) S1x128x256x128 .f32) :
    p ∈ pb_k0_t1 (F := F) 𝒱 c bd i arg2 harg2 arg3 harg3 arg4 harg4 arg5 harg5 arg6 harg6 arg7 harg7 arg8 harg8 v3 v9 v14 X8 n
      ↔ ∃ k : Fin k0_t1_loop.trips, k.val < n ∧ p = tripPiece arg8 v3 v9 v14 X8 k := by
  induction n with
  | zero =>
    rw [pb_k0_t1]
    constructor
    · intro h; exact absurd h List.not_mem_nil
    · rintro ⟨k, hk, -⟩; exact absurd hk (Nat.not_lt_zero _)
  | succ n ih =>
    have hlt : n < k0_t1_loop.trips := hn
    rw [show pb_k0_t1 (F := F) 𝒱 c bd i arg2 harg2 arg3 harg3 arg4 harg4 arg5 harg5 arg6 harg6 arg7 harg7 arg8 harg8 v3 v9 v14 X8 (n + 1) = _ from
      pb_k0_t1_succ (F := F) 𝒱 c bd i arg2 harg2 arg3 harg3 arg4 harg4 arg5 harg5 arg6 harg6 arg7 harg7 arg8 harg8 v3 v9 v14 X8 ⟨n, hlt⟩, tripL_eq, List.mem_append, List.mem_singleton,
      ih (Nat.le_of_lt hlt)]
    constructor
    · rintro (rfl | ⟨k, hk, rfl⟩)
      · exact ⟨⟨n, hlt⟩, Nat.lt_succ_self _, rfl⟩
      · exact ⟨k, Nat.lt_succ_of_lt hk, rfl⟩
    · rintro ⟨k, hk, rfl⟩
      rcases Nat.lt_succ_iff_lt_or_eq.mp hk with h | h
      · exact .inr ⟨k, h, rfl⟩
      · exact .inl (congrArg (tripPiece arg8 v3 v9 v14 X8) (Fin.ext h))

end Pieces

section Run

variable (c : Dev nD) (i : grid0.Coords) (arg2 : Memref sig .tc .vmem S1x128x384 .f32) (harg2 : arg2.IsWhole) (arg3 : Memref sig .tc .vmem S1x256x384 .f32) (harg3 : arg3.IsWhole) (arg4 : Memref sig .tc .vmem S384x128 .f32) (harg4 : arg4.IsWhole) (arg5 : Memref sig .tc .vmem S384x128 .f32) (harg5 : arg5.IsWhole) (arg6 : Memref sig .tc .vmem S1x128 .f32) (harg6 : arg6.IsWhole) (arg7 : Memref sig .tc .vmem S1x128x256x128 .f32) (harg7 : arg7.IsWhole) (arg8 : Memref sig .tc .vmem S128x128 .f32) (harg8 : arg8.IsWhole) (x0 : Vec F S1x128x384 .f32) (x1 : Vec F S1x256x384 .f32) (x2 : Vec F S384x128 .f32) (x3 : Vec F S384x128 .f32) (x4 : Vec F S1x128 .f32)

theorem zero3 : (![0, 0, 0] : Fin 3 → ℕ) = fun _ => 0 := funext fun a => by fin_cases a <;> rfl
theorem zero2 : (![0, 0] : Fin 2 → ℕ) = fun _ => 0 := funext fun a => by fin_cases a <;> rfl

/-- The scratch after the body's one store into it: the first projection, over anything. -/
abbrev scratchAfter : BufTy.Contents (Elt F) arg8.view.ty :=
  arg8.view.writes (Elt F) arg8.view.junk
    [⟨Rect.unit (s := S128x128) ![0, 0] S128x128.size inb_S128x128_S128x128_0_0, k0_pay1 x0 x2⟩]

/-- The pieces the run finds are the sixteen trips' pieces, over the input blocks and the stored first projection. -/
theorem run_pieces : (kernelRun (F := F) c i arg2 harg2 arg3 harg3 arg4 harg4 arg5 harg5 arg6 harg6 arg7 harg7 arg8 harg8 x0 x1 x2 x3 x4).1
    = pb_k0_t1 (F := F) Variants.none c none i arg2 harg2 arg3 harg3 arg4 harg4 arg5 harg5 arg6 harg6 arg7 harg7 arg8 harg8 x1 x3 x4 (scratchAfter arg8 x0 x2) k0_t1_loop.trips := by
  unfold kernelRun
  dsimp only
  sl_unfold_run_names
  simp only [View.readAt_eq_ld, Memref.IsWhole.read_unread]
  rw [View.ld_unit_zero zero3 inb_S1x256x384_S1x256x384_0_0_0 x1, View.ld_unit_zero zero2 inb_S384x128_S384x128_0_0 x3,
    View.ld_unit_zero zero2 inb_S1x128_S1x128_0_0 x4, View.ld_unit_zero zero3 inb_S1x128x384_S1x128x384_0_0_0 x0,
    View.ld_unit_zero zero2 inb_S384x128_S384x128_0_0 x2]

/-- Eight rows of the scratch, loaded back, are eight rows of the first projection. -/
theorem scratch_rows (k : Fin k0_t1_loop.trips) :
    View.readAt (Elt F) arg8.view (Rect.unit (s := S128x128) (k0_off1 k) S8x128.size (k0_off1_inb k)).toLoadRect (scratchAfter arg8 x0 x2)
      = View.ld (k0_pay1 x0 x2) (Rect.unit (s := S128x128) (k0_off1 k) S8x128.size (k0_off1_inb k)) := by
  rw [View.readAt_eq_ld, View.read_writes_junk_eq_canon, View.canon_unit_zero zero2]

end Run

section Agree

variable (c : Dev nD) (i : grid0.Coords) (arg2 : Memref sig .tc .vmem S1x128x384 .f32) (harg2 : arg2.IsWhole) (arg3 : Memref sig .tc .vmem S1x256x384 .f32) (harg3 : arg3.IsWhole) (arg4 : Memref sig .tc .vmem S384x128 .f32) (harg4 : arg4.IsWhole) (arg5 : Memref sig .tc .vmem S384x128 .f32) (harg5 : arg5.IsWhole) (arg6 : Memref sig .tc .vmem S1x128 .f32) (harg6 : arg6.IsWhole) (arg7 : Memref sig .tc .vmem S1x128x256x128 .f32) (harg7 : arg7.IsWhole) (arg8 : Memref sig .tc .vmem S128x128 .f32) (harg8 : arg8.IsWhole) (x0 : Vec F S1x128x384 .f32) (x1 : Vec F S1x256x384 .f32) (x2 : Vec F S384x128 .f32) (x3 : Vec F S384x128 .f32) (x4 : Vec F S1x128 .f32)

/-- Trip `k`'s piece agrees, where it lies, with the block's one function: the index it places at local position `x` has
    row plane `8k + x₁`, whose trip is `k` and whose position in the group of eight is `x₁`. -/
theorem tripPiece_agree (k : Fin k0_t1_loop.trips) (x : S1x8x256x128.Idx) :
    k0_pay2 x1 x3 x4 (View.readAt (Elt F) arg8.view (Rect.unit (s := S128x128) (k0_off1 k) S8x128.size (k0_off1_inb k)).toLoadRect (scratchAfter arg8 x0 x2)) x
      = blockOut x0 x1 x2 x3 x4 ((Rect.unit (s := S1x128x256x128) (k0_off2 k) S1x8x256x128.size (k0_off2_inb k)).emb x) := by
  rw [scratch_rows]
  have hoff := k0_off2_eq k
  have hk : k.val < 16 := Nat.lt_of_lt_of_le k.isLt (le_of_eq trips_eq)
  have hx0 : (x 0).val < 1 := (x 0).isLt
  have hx1 : (x 1).val < 8 := (x 1).isLt
  have e1 : (((Rect.unit (s := S1x128x256x128) (k0_off2 k) S1x8x256x128.size (k0_off2_inb k)).emb x) 1).val = 8 * k.val + (x 1).val := by
    show k0_off2 k 1 + 1 * (x 1).val = _
    rw [hoff]; show 8 * k.val + 1 * (x 1).val = _; omega
  have e2 : (((Rect.unit (s := S1x128x256x128) (k0_off2 k) S1x8x256x128.size (k0_off2_inb k)).emb x) 2).val = (x 2).val := by
    show k0_off2 k 2 + 1 * (x 2).val = _
    rw [hoff]; show 0 + 1 * (x 2).val = _; omega
  have e3 : (((Rect.unit (s := S1x128x256x128) (k0_off2 k) S1x8x256x128.size (k0_off2_inb k)).emb x) 3).val = (x 3).val := by
    show k0_off2 k 3 + 1 * (x 3).val = _
    rw [hoff]; show 0 + 1 * (x 3).val = _; omega
  unfold blockOut
  have ht : tripOf (((Rect.unit (s := S1x128x256x128) (k0_off2 k) S1x8x256x128.size (k0_off2_inb k)).emb x) 1) = k :=
    Fin.ext (by show (((Rect.unit (s := S1x128x256x128) (k0_off2 k) S1x8x256x128.size (k0_off2_inb k)).emb x) 1).val / 8 = k.val; omega)
  show planes x0 x1 x2 x3 x4 k x = _
  refine (congr (congrArg (planes x0 x1 x2 x3 x4) ht) ?_).symm
  funext a
  match a with
  | ⟨0, _⟩ => exact Fin.ext (by show 0 = (x 0).val; omega)
  | ⟨1, _⟩ => exact Fin.ext (by show (((Rect.unit (s := S1x128x256x128) (k0_off2 k) S1x8x256x128.size (k0_off2_inb k)).emb x) 1).val % 8 = (x 1).val; omega)
  | ⟨2, _⟩ => exact Fin.ext e2
  | ⟨3, _⟩ => exact Fin.ext e3

/-- Every piece the run finds agrees with `blockOut` where it lies. -/
theorem run_agree (p : View.Piece (Elt F) S1x128x256x128 .f32)
    (hp : p ∈ (kernelRun (F := F) c i arg2 harg2 arg3 harg3 arg4 harg4 arg5 harg5 arg6 harg6 arg7 harg7 arg8 harg8 x0 x1 x2 x3 x4).1) (x : p.1.shape.Idx) :
    p.2 x = blockOut x0 x1 x2 x3 x4 (p.1.emb x) := by
  rw [run_pieces] at hp
  obtain ⟨k, -, rfl⟩ := (mem_pb _ _ _ _ arg2 harg2 arg3 harg3 arg4 harg4 arg5 harg5 arg6 harg6 arg7 harg7 arg8 harg8 _ _ _ _ _ le_rfl _).mp hp
  exact tripPiece_agree arg8 x0 x1 x2 x3 x4 k x

/-- The pieces cover the block: an index of row plane `r` lies under the piece of trip `r / 8`. -/
theorem run_cover (y : S1x128x256x128.Idx) :
    ∃ p ∈ (kernelRun (F := F) c i arg2 harg2 arg3 harg3 arg4 harg4 arg5 harg5 arg6 harg6 arg7 harg7 arg8 harg8 x0 x1 x2 x3 x4).1, y ∈ p.1.set := by
  rw [run_pieces]
  refine ⟨tripPiece arg8 x1 x3 x4 (scratchAfter arg8 x0 x2) (tripOf (y 1)),
    (mem_pb _ _ _ _ arg2 harg2 arg3 harg3 arg4 harg4 arg5 harg5 arg6 harg6 arg7 harg7 arg8 harg8 _ _ _ _ _ le_rfl _).mpr ⟨tripOf (y 1), (tripOf (y 1)).isLt, rfl⟩, ?_⟩
  show y ∈ (Rect.unit (s := S1x128x256x128) (k0_off2 (tripOf (y 1))) S1x8x256x128.size (k0_off2_inb (tripOf (y 1)))).set
  rw [Rect.mem_set_unit]
  have hoff := k0_off2_eq (tripOf (y 1))
  have h0 : (y 0).val < 1 := (y 0).isLt
  have h1 : (y 1).val < 128 := (y 1).isLt
  have h2 : (y 2).val < 256 := (y 2).isLt
  have h3 : (y 3).val < 128 := (y 3).isLt
  have hv : (tripOf (y 1)).val = (y 1).val / 8 := rfl
  intro a
  rw [hoff]
  match a with
  | ⟨0, _⟩ => show (0 : ℕ) ≤ (y 0).val ∧ (y 0).val < 0 + 1; omega
  | ⟨1, _⟩ => show 8 * (tripOf (y 1)).val ≤ (y 1).val ∧ (y 1).val < 8 * (tripOf (y 1)).val + 8; omega
  | ⟨2, _⟩ => show (0 : ℕ) ≤ (y 2).val ∧ (y 2).val < 0 + 256; omega
  | ⟨3, _⟩ => show (0 : ℕ) ≤ (y 3).val ∧ (y 3).val < 0 + 128; omega

/-- So after the body the output's buffer reads `blockOut` of the input blocks, whatever it held before. -/
theorem run_reads (f : BufTy.Contents (Elt F) arg7.view.ty) :
    arg7.view.read (Elt F) (arg7.view.writes (Elt F) f (kernelRun (F := F) c i arg2 harg2 arg3 harg3 arg4 harg4 arg5 harg5 arg6 harg6 arg7 harg7 arg8 harg8 x0 x1 x2 x3 x4).1)
      = blockOut x0 x1 x2 x3 x4 := by
  rw [View.read_writes_eq_canon _ _ _ (run_cover c i arg2 harg2 arg3 harg3 arg4 harg4 arg5 harg5 arg6 harg6 arg7 harg7 arg8 harg8 x0 x1 x2 x3 x4)]
  funext y
  exact View.canon_apply_of_pieces (blockOut x0 x1 x2 x3 x4) _ (run_agree c i arg2 harg2 arg3 harg3 arg4 harg4 arg5 harg5 arg6 harg6 arg7 harg7 arg8 harg8 x0 x1 x2 x3 x4) y
    (run_cover c i arg2 harg2 arg3 harg3 arg4 harg4 arg5 harg5 arg6 harg6 arg7 harg7 arg8 harg8 x0 x1 x2 x3 x4 y)

end Agree

end Cert.Kernel.Frm

end
-- ==== Proof.LibSharedWindows.lean ====
/-
  Windows that share an array. A pipeline may be handed one array through several input windows; the buffers behind its
  windows' arrays are then fewer than the windows. These lemmas say what a core's unscoped buffers are in that case —
  the DISTINCT buffers behind the arrays, and the rest —, list those buffers, and say that the rest only depends on the
  contents off the arrays. They hold for any window specification, any number of windows and any sharing pattern; how an
  array's share is dealt among the windows on it is left to the pipeline at hand.
-/
import Idealize.ShloMosaic.Lib.Pipeline.Kit
import Idealize.ShloMosaic.Lib.Pipeline.Launch

noncomputable section

namespace Cert.SharedWindows

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- A core's unscoped buffers at contents `V` are the distinct buffers behind the windows' arrays at `V` and the rest,
    whether or not two windows are on one array. -/
theorem unscopedBufs_split {gr : Nat} {W : Nat} (win : Fin W → WinSpec sig gr) (c : Dev nD)
    (hunscoped : ∀ w, (arrRef win w).isScoped = false) (V : (b : Ref sig .tc) → Buf Val ((c.tc : Thread nD τ).loc b)) :
    (unscopedBufs c V : sProp 𝕄) = iprop((arrBufs win c V : sProp 𝕄) ∗ unscopedRest win c V) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hunscoped w]⟩
  unfold unscopedBufs unscopedRest arrBufs
  rw [bigSep_sdiff_split hA]
  rfl

/-- The distinct buffers behind the windows' arrays, listed. -/
theorem arrBufs_eq_of_list {gr : Nat} {W : Nat} (win : Fin W → WinSpec sig gr) (c : Dev nD)
    (V : (b : Ref sig .tc) → Buf Val ((c.tc : Thread nD τ).loc b)) (l : List (Ref sig .tc))
    (h : Finset.univ.image (arrRef win) = l.toFinset) (hl : l.Nodup) :
    (arrBufs win c V : sProp 𝕄) = bigSepL l fun b => ((c.tc : Thread nD τ).loc b) ↦{fullShare} V b := by
  unfold arrBufs; exact bigSep_eq_bigSepL_of_eq l h hl _

/-- The unscoped buffers that are no window's array only see the contents off the arrays. -/
theorem unscopedRest_congr {gr : Nat} {W : Nat} (win : Fin W → WinSpec sig gr) (c : Dev nD)
    (V V' : (b : Ref sig .tc) → Buf Val ((c.tc : Thread nD τ).loc b))
    (h : ∀ b, b ∉ Finset.univ.image (arrRef win) → V b = V' b) :
    (unscopedRest win c V : sProp 𝕄) = unscopedRest win c V' := by
  unfold unscopedRest
  exact bigSep_congr fun b hb => by rw [h b (Finset.mem_sdiff.mp hb).2]

end Cert.SharedWindows

end
-- ==== Proof.LibSharedFrame.lean ====
/-
  The frame run of a one-region pipeline whose windows may share an array. A kernel may be handed one array through
  several input windows; the buffers behind the windows' arrays are then fewer than the windows, and the full share of a
  shared array has to be dealt among the windows on it. This file states the frame run for that case once, for any
  pipeline: given the layout facts that do not ask the arrays to be distinct, the body obligation, the program's shape
  up to the region, and an entailment `hsplit` saying how the distinct array buffers at the region's entry make the
  proof data's arrays at their shares, every weakly fair execution terminates, every array of the pipeline ends at what
  the proof data compute and every other unscoped buffer ends as the region found it. The region invariant is any
  `Φ` that the core's scoped rest (the scratch, at some contents) yields before the first point and yields back
  after the last; the generator register is not handed to the body.
-/
import Idealize.ShloMosaic.Lib.Pipeline.Frame

noncomputable section

namespace Cert.Lib.SharedFrame

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run for windows that may share an array. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show _ ⊢ (scopedRest (Ix := Unit) (Name := ℕ) (U := UR sig nD τ) (Lvl := ℕ) (Val := Val) (cfgs p).spec c : sProp 𝕄) from by
      iintro ⟨-, HR⟩; iexact HR).trans (hin c))
    (hout := fun c => (hout c).trans (by
      iintro HR
      isplitr; · iempintro
      iexact HR))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib.SharedFrame

end
-- ==== Proof.BitsFrame.lean ====
/-
  The frame of the pair-update program: its proof data, the body obligation and the run. The region's six windows are
  two blocks of the one row array `s` (the rows of the block's row range and of its column range), the two halves of
  the weights, the bias row, and the output block. The two windows on `s` only read it, so the array's full share is
  dealt in halves between them at the region's entry; every other array is held whole. After the body each input's
  buffer holds its block still and the output's holds `blockOut` of the five input blocks; between points the body
  keeps nothing (its scratch is rewritten at every point before it is read).
-/
import proofs.«122135_j48524540510542_2_alg».proof.Proof.BitsPieces
import proofs.«122135_j48524540510542_2_alg».proof.Proof.LibSharedWindows
import proofs.«122135_j48524540510542_2_alg».proof.Proof.LibSharedFrame

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point `t` each
    input's buffer at its block and the output's at `blockOut` of the input blocks; the invariant the core's scoped
    rest (the scratch at anything); the row array held in halves by its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = blockOut (iblk m c 0 t) (iblk m c 1 t) (iblk m c 2 t) (iblk m c 3 t) (iblk m c 4 t) := by
  dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-- The scratch, at anything, is the core's scoped rest. -/
theorem scratch_eq (c : Dev nD) :
    (Pipeline.scopedRest (Ix := Unit) (Name := ℕ) (U := UR sig nD τ) (Lvl := ℕ) (Val := Elt F) spec0 c : sProp 𝕄)
      = iprop(∃ f, (msS).view.loc (c : Thread nD τ) ↦[(msS).view.set]{fullShare} f) := by
  rw [scopedRest0_eq c, (hsS).set_eq_univ]

/-- The body at any point: the inputs' memrefs hold their blocks, so the run applies; the scratch is taken from the
    invariant at anything and handed back at anything; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5,
    show (dats m 0 c).Φ t.castSucc = Pipeline.scopedRest (Ix := Unit) (Name := ℕ) (U := UR sig nD τ) (Lvl := ℕ) (Val := Elt F) spec0 c from rfl,
    scratch_eq]
  iintro ⟨HΦ, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HΦ]; · iexact HΦ
  iintro ⟨H0, H1, H2, H3, H4, ⟨%e5, H5⟩, HΦ⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact run_reads c _ _ _ _ _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at the region's entry -/

/-- A window's array, whole, at a share. -/
theorem arr_pointsTo (c : Dev nD) (w : Fin cfg0.W) (q : PosShare TreeShare) (X : Buf (Elt F) ((cfg0.win w).arr.view.loc (c : Thread nD τ))) :
    ((cfg0.win w).arr.view.loc (c : Thread nD τ) ↦[(cfg0.win w).arr.view.set]{q} X : sProp 𝕄)
      = (((c : Thread nD τ).loc (Pipeline.arrRef spec0 w)) ↦{q} X) := by
  rw [(arr_whole0 w).set_eq_univ]

/-- The distinct buffers behind the six windows' arrays are five: the row array, the two halves of the weights, the bias
    row and the output. -/
theorem arrBufs0_eq (c : Dev nD) :
    (Pipeline.arrBufs spec0 c (V m c) : sProp 𝕄)
      = iprop((((c : Thread nD τ).loc main_arg0) ↦{fullShare} V m c main_arg0) ∗ (((c : Thread nD τ).loc main_v0) ↦{fullShare} V m c main_v0)
          ∗ (((c : Thread nD τ).loc main_v1) ↦{fullShare} V m c main_v1) ∗ (((c : Thread nD τ).loc main_v2) ↦{fullShare} V m c main_v2)
          ∗ (((c : Thread nD τ).loc main_v3) ↦{fullShare} V m c main_v3)) :=
  Cert.SharedWindows.arrBufs_eq_of_list spec0 c (V m c) [main_arg0, main_v0, main_v1, main_v2, main_v3] (by decide) (by decide)

/-- The shares the proof data hold the arrays at: the row array in halves, the others whole. -/
theorem share0 (c : Dev nD) : (dats m 0 c).share 0 = fullShare.left := by unfold Dat.share; rfl
theorem share1 (c : Dev nD) : (dats m 0 c).share 1 = fullShare.right := by unfold Dat.share; rfl
theorem share2 (c : Dev nD) : (dats m 0 c).share 2 = fullShare := by unfold Dat.share; rfl
theorem share3 (c : Dev nD) : (dats m 0 c).share 3 = fullShare := by unfold Dat.share; rfl
theorem share4 (c : Dev nD) : (dats m 0 c).share 4 = fullShare := by unfold Dat.share; rfl
theorem share5 (c : Dev nD) : (dats m 0 c).share 5 = fullShare := by unfold Dat.share; rfl
/-- Before any write-back an array holds its entry contents. -/
theorem arrAt_zero (c : Dev nD) (w : Fin cfg0.W) : (dats m 0 c).arrAt w 0 = V m c (Pipeline.arrRef spec0 w) := A_eq m c w

/-- The five distinct buffers behind the six windows' arrays, each whole at its entry contents, make the proof data's
    arrays: the row array's full share splits into the halves its two windows hold. -/
theorem hsplit (c : Dev nD) :
    (Pipeline.arrBufs spec0 c (V m c) : sProp 𝕄) ⊢ (dats m 0 c).arrays ((dats m 0 c).arrAt · 0) := by
  rw [arrBufs0_eq]
  unfold Dat.arrays
  rw [bigSep_W0]
  beta_reduce
  rw [arr_pointsTo c 0, arr_pointsTo c 1, arr_pointsTo c 2, arr_pointsTo c 3, arr_pointsTo c 4, arr_pointsTo c 5,
    share0, share1, share2, share3, share4, share5,
    arrAt_zero m c 0, arrAt_zero m c 1, arrAt_zero m c 2, arrAt_zero m c 3, arrAt_zero m c 4, arrAt_zero m c 5]
  iintro ⟨H0, H2, H3, H4, H5⟩
  ihave H0' := (pointsTo_share (PosShare.mem_left_op_right fullShare)).1 $$ H0
  icases H0' with ⟨H0l, H0r⟩
  isplitl [H0l]; · iexact H0l
  isplitl [H0r]; · iexact H0r
  isplitl [H2]; · iexact H2
  isplitl [H3]; · iexact H3
  isplitl [H4]; · iexact H4
  iexact H5

/-! ## The run and the frame -/

set_option backward.isDefEq.respectTransparency.types false in
/-- At the compiled mesh, for any values, from any memory with zero counters: every weakly fair execution of @main
    terminates, and every final state has every array of the pipeline at what the proof data compute and every other
    unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := fun _ => .rfl) (hout := fun _ => .rfl)

/-- The frame claim's post: the four argument arrays end as launched. The row array is read off either of its
    windows; the unused pair array, the weights and the bias bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 rfl (by decide))).trans (V_main_arg1 m c),
      ((h c).2 main_arg2 (Pipeline.mem_restRefs_of main_arg2 rfl (by decide))).trans (V_main_arg2 m c),
      ((h c).2 main_arg3 (Pipeline.mem_restRefs_of main_arg3 rfl (by decide))).trans (V_main_arg3 m c)⟩) (run_main m ρ)

end Cert.Kernel.Frm

end
-- ==== Proof.IdealKit.lean ====
/-
  The launch side of the frame: the arrays as the pair-update region finds them. Before the region @main slices the
  weights into their upper and lower halves and reshapes the bias to a row; the region is then entered with the
  argument arrays as launched and those three results beside them. A window's block at a grid point is read off its
  array there; an input window's staging buffer holds that block whenever the body runs, whether the point fetched it
  or an earlier one did (the block index has not moved since).
-/
import proofs.«122135_j48524540510542_2_alg».proof.Proof.Gen.KernelIdeal.Launch
import proofs.«122135_j48524540510542_2_alg».proof.Proof.Gen.KernelIdeal.Skeleton
import proofs.«122135_j48524540510542_2_alg».proof.Proof.Gen.KernelIdeal.Loops
import proofs.«122135_j48524540510542_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two slices of the weights and the reshape of the bias. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main up to the region: the three host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, spelled as the pipeline passes it, and its wholeness. -/
abbrev ms0 (t : Fin cfg0.N) : Memref sig .tc .vmem S1x128x384 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x384 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S384x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S384x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128x256x128 .f32 := win0_5.stage (cfg0.slots t 5)
abbrev hs5 (t : Fin cfg0.N) : (ms5 t).IsWhole := hstage0_5 ((cfg0.slots t 5).cast nbuf0_5)
/-- The kernel's scratch: one whole buffer. -/
abbrev msS : Memref sig .tc .vmem S128x128 .f32 := Memref.whole cc0_scratch0
abbrev hsS : (msS).IsWhole := Memref.isWhole_whole _

end Cert.KernelIdeal.Frm

end
-- ==== Proof.IdealRun.lean ====
/-
  The pair-update body on whole staging buffers. It loads the two row blocks, the two halves of the weights and the
  bias row; stores the first projection (128 rows by 128 features) into its scratch; then, sixteen times, loads eight
  rows of that scratch back and stores the eight corresponding row planes of the output block — each plane the eight
  scratch rows spread along the column axis plus the second projection (with the bias) spread along the row axis. The
  run is stated as a subtype: the pieces the output buffer ends with are the witness the run itself finds, so nothing
  of the arithmetic is transcribed here.
-/
import proofs.«122135_j48524540510542_2_alg».proof.Proof.IdealKit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave in the output's staging memref, as pieces (last first), with the proof that on whole
    staging memrefs — the inputs' at their contents, the output's and the scratch at anything — the body runs to the
    continuation holding the inputs' as they were, the output's buffer with those pieces written and the scratch at
    something. -/
noncomputable def kernelRun (c : Dev nD) (i : grid0.Coords) (arg2 : Memref sig .tc .vmem S1x128x384 .f32) (harg2 : arg2.IsWhole) (arg3 : Memref sig .tc .vmem S1x256x384 .f32) (harg3 : arg3.IsWhole) (arg4 : Memref sig .tc .vmem S384x128 .f32) (harg4 : arg4.IsWhole) (arg5 : Memref sig .tc .vmem S384x128 .f32) (harg5 : arg5.IsWhole) (arg6 : Memref sig .tc .vmem S1x128 .f32) (harg6 : arg6.IsWhole) (arg7 : Memref sig .tc .vmem S1x128x256x128 .f32) (harg7 : arg7.IsWhole) (arg8 : Memref sig .tc .vmem S128x128 .f32) (harg8 : arg8.IsWhole)
    (x0 : Vec F S1x128x384 .f32) (x1 : Vec F S1x256x384 .f32) (x2 : Vec F S384x128 .f32) (x3 : Vec F S384x128 .f32) (x4 : Vec F S1x128 .f32) :
    { L5 : List (View.Piece (Elt F) S1x128x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ (∃ f, arg8.view.loc (c : Thread nD τ) ↦[arg8.view.set]{fullShare} f)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} f)) -∗ K ⟨⟩))
          ⊢ wp frame (wpE (defs₀ (F := F)) Variants.none c none) E (cc0__pair_update_kernel i arg2 harg2 arg3 harg3 arg4 harg4 arg5 harg5 arg6 harg6 arg7 harg7 arg8 harg8) K } := by
  refine ⟨?_, fun E K => ?run⟩
  case run =>
    simp only [cc0__pair_update_kernel_eq_skeleton]; unfold cc0__pair_update_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, H8⟩, Hk⟩
    obtain rfl := harg2.eq_unread hf0
    obtain rfl := harg3.eq_unread hf1
    obtain rfl := harg4.eq_unread hf2
    obtain rfl := harg5.eq_unread hf3
    obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact H8

end Cert.KernelIdeal.Frm

end
-- ==== Proof.IdealBlock.lean ====
/-
  What the pair-update body leaves in the output block, as one function of the five input blocks. With `P` the first
  projection (the row block times the upper weights: 128 rows by 128 features), row plane `r` of the block is rows
  `8·(r / 8) … 8·(r / 8) + 7` of `P` spread along the columns, plus the second projection with the bias spread along the
  rows, read at row `r % 8` of that group of eight: the body writes the block eight row planes at a time, in sixteen
  trips, and `planes … k` is what trip `k` writes.
-/
import proofs.«122135_j48524540510542_2_alg».proof.Proof.Gen.KernelIdeal.Skeleton
import Idealize.ShloMosaic.Lib.Pipeline.FrameBody
import Idealize.ShloMosaic.Lib.ValueIdx

noncomputable section

namespace Cert.KernelIdeal.Frm

open Cert.KernelIdeal Cert.KernelIdeal.Gen
open Idealize.ShloMosaic Idealize.ShloMosaic.ValueIdx

variable {F : FTy → Type} [FloatOps F]

/-- The loop makes sixteen trips. -/
theorem trips_eq : k0_t1_loop.trips = 16 := by decide +kernel

/-- The eight row planes trip `k` writes: the second projection plus bias, and rows `8k … 8k+7` of the first. -/
def planes (x0 : Vec F S1x128x384 .f32) (x1 : Vec F S1x256x384 .f32) (x2 x3 : Vec F S384x128 .f32) (x4 : Vec F S1x128 .f32)
    (k : Fin k0_t1_loop.trips) : FVec F S1x8x256x128 .f32 :=
  k0_pay2 x1 x3 x4 (View.ld (k0_pay1 x0 x2) (Rect.unit (s := S128x128) (k0_off1 k) S8x128.size (k0_off1_inb k)))

/-- The trip that writes row plane `r` of the block. -/
def tripOf (r : Fin 128) : Fin k0_t1_loop.trips := ⟨r.val / 8, by rw [trips_eq]; have := r.isLt; omega⟩

/-- The output block after the body: entry `(0, r, c, f)` is entry `(0, r % 8, c, f)` of the planes of trip `r / 8`. -/
def blockOut (x0 : Vec F S1x128x384 .f32) (x1 : Vec F S1x256x384 .f32) (x2 x3 : Vec F S384x128 .f32) (x4 : Vec F S1x128 .f32) :
    Vec F S1x128x256x128 .f32 :=
  fun y => planes x0 x1 x2 x3 x4 (tripOf (y 1))
    (ix4 (0 : Fin 1) (⟨(y 1).val % 8, Nat.mod_lt _ (by decide)⟩ : Fin 8) (y 2) (y 3))

end Cert.KernelIdeal.Frm

end
-- ==== Proof.IdealPieces.lean ====
/-
  The pieces the body's sixteen trips leave in the output block, read back. Trip `k` stores one piece: row planes
  `8k … 8k+7` of the block, all columns and features, holding `planes … k`. The pieces of the trips before `n` are exactly
  those of `k < n`; after the last trip every index of the block lies under the piece of trip `r / 8` (`r` its row plane),
  and every piece agrees there with the one function `blockOut`. So whatever the buffer held before, after the body it
  reads `blockOut` of the five input blocks.
-/
import proofs.«122135_j48524540510542_2_alg».proof.Proof.IdealRun
import proofs.«122135_j48524540510542_2_alg».proof.Proof.IdealBlock
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

section Pieces

variable (𝒱 : Variants) (c : Dev nD) (bd : Option 𝒱.V) (i : grid0.Coords) (arg2 : Memref sig .tc .vmem S1x128x384 .f32) (harg2 : arg2.IsWhole) (arg3 : Memref sig .tc .vmem S1x256x384 .f32) (harg3 : arg3.IsWhole) (arg4 : Memref sig .tc .vmem S384x128 .f32) (harg4 : arg4.IsWhole) (arg5 : Memref sig .tc .vmem S384x128 .f32) (harg5 : arg5.IsWhole) (arg6 : Memref sig .tc .vmem S1x128 .f32) (harg6 : arg6.IsWhole) (arg7 : Memref sig .tc .vmem S1x128x256x128 .f32) (harg7 : arg7.IsWhole) (arg8 : Memref sig .tc .vmem S128x128 .f32) (harg8 : arg8.IsWhole)
  (v3 : Vec F S1x256x384 .f32) (v9 : Vec F S384x128 .f32) (v14 : Vec F S1x128 .f32) (X8 : BufTy.Contents (Elt F) arg8.view.ty)

/-- The piece trip `k` stores: its eight row planes, computed from the scratch rows it loads. -/
def tripPiece (k : Fin k0_t1_loop.trips) : View.Piece (Elt F) S1x128x256x128 .f32 :=
  ⟨Rect.unit (s := S1x128x256x128) (k0_off2 k) S1x8x256x128.size (k0_off2_inb k),
    k0_pay2 v3 v9 v14 (View.readAt (Elt F) arg8.view (Rect.unit (s := S128x128) (k0_off1 k) S8x128.size (k0_off1_inb k)).toLoadRect X8)⟩

/-- One trip stores exactly that piece. -/
theorem tripL_eq (k : Fin k0_t1_loop.trips) :
    tripL_k0_t1 (F := F) 𝒱 c bd i arg2 harg2 arg3 harg3 arg4 harg4 arg5 harg5 arg6 harg6 arg7 harg7 arg8 harg8 v3 v9 v14 X8 k = [tripPiece arg8 v3 v9 v14 X8 k] := by
  unfold tripL_k0_t1 trip_k0_t1
  rfl

/-- The pieces of the trips before `n` are those of the trips `k < n`. -/
theorem mem_pb (n : ℕ) (hn : n ≤ k0_t1_loop.trips) (p : View.Piece (Elt F) S1x128x256x128 .f32) :
    p ∈ pb_k0_t1 (F := F) 𝒱 c bd i arg2 harg2 arg3 harg3 arg4 harg4 arg5 harg5 arg6 harg6 arg7 harg7 arg8 harg8 v3 v9 v14 X8 n
      ↔ ∃ k : Fin k0_t1_loop.trips, k.val < n ∧ p = tripPiece arg8 v3 v9 v14 X8 k := by
  induction n with
  | zero =>
    rw [pb_k0_t1]
    constructor
    · intro h; exact absurd h List.not_mem_nil
    · rintro ⟨k, hk, -⟩; exact absurd hk (Nat.not_lt_zero _)
  | succ n ih =>
    have hlt : n < k0_t1_loop.trips := hn
    rw [show pb_k0_t1 (F := F) 𝒱 c bd i arg2 harg2 arg3 harg3 arg4 harg4 arg5 harg5 arg6 harg6 arg7 harg7 arg8 harg8 v3 v9 v14 X8 (n + 1) = _ from
      pb_k0_t1_succ (F := F) 𝒱 c bd i arg2 harg2 arg3 harg3 arg4 harg4 arg5 harg5 arg6 harg6 arg7 harg7 arg8 harg8 v3 v9 v14 X8 ⟨n, hlt⟩, tripL_eq, List.mem_append, List.mem_singleton,
      ih (Nat.le_of_lt hlt)]
    constructor
    · rintro (rfl | ⟨k, hk, rfl⟩)
      · exact ⟨⟨n, hlt⟩, Nat.lt_succ_self _, rfl⟩
      · exact ⟨k, Nat.lt_succ_of_lt hk, rfl⟩
    · rintro ⟨k, hk, rfl⟩
      rcases Nat.lt_succ_iff_lt_or_eq.mp hk with h | h
      · exact .inr ⟨k, h, rfl⟩
      · exact .inl (congrArg (tripPiece arg8 v3 v9 v14 X8) (Fin.ext h))

end Pieces

section Run

variable (c : Dev nD) (i : grid0.Coords) (arg2 : Memref sig .tc .vmem S1x128x384 .f32) (harg2 : arg2.IsWhole) (arg3 : Memref sig .tc .vmem S1x256x384 .f32) (harg3 : arg3.IsWhole) (arg4 : Memref sig .tc .vmem S384x128 .f32) (harg4 : arg4.IsWhole) (arg5 : Memref sig .tc .vmem S384x128 .f32) (harg5 : arg5.IsWhole) (arg6 : Memref sig .tc .vmem S1x128 .f32) (harg6 : arg6.IsWhole) (arg7 : Memref sig .tc .vmem S1x128x256x128 .f32) (harg7 : arg7.IsWhole) (arg8 : Memref sig .tc .vmem S128x128 .f32) (harg8 : arg8.IsWhole) (x0 : Vec F S1x128x384 .f32) (x1 : Vec F S1x256x384 .f32) (x2 : Vec F S384x128 .f32) (x3 : Vec F S384x128 .f32) (x4 : Vec F S1x128 .f32)

theorem zero3 : (![0, 0, 0] : Fin 3 → ℕ) = fun _ => 0 := funext fun a => by fin_cases a <;> rfl
theorem zero2 : (![0, 0] : Fin 2 → ℕ) = fun _ => 0 := funext fun a => by fin_cases a <;> rfl

/-- The scratch after the body's one store into it: the first projection, over anything. -/
abbrev scratchAfter : BufTy.Contents (Elt F) arg8.view.ty :=
  arg8.view.writes (Elt F) arg8.view.junk
    [⟨Rect.unit (s := S128x128) ![0, 0] S128x128.size inb_S128x128_S128x128_0_0, k0_pay1 x0 x2⟩]

/-- The pieces the run finds are the sixteen trips' pieces, over the input blocks and the stored first projection. -/
theorem run_pieces : (kernelRun (F := F) c i arg2 harg2 arg3 harg3 arg4 harg4 arg5 harg5 arg6 harg6 arg7 harg7 arg8 harg8 x0 x1 x2 x3 x4).1
    = pb_k0_t1 (F := F) Variants.none c none i arg2 harg2 arg3 harg3 arg4 harg4 arg5 harg5 arg6 harg6 arg7 harg7 arg8 harg8 x1 x3 x4 (scratchAfter arg8 x0 x2) k0_t1_loop.trips := by
  unfold kernelRun
  dsimp only
  sl_unfold_run_names
  simp only [View.readAt_eq_ld, Memref.IsWhole.read_unread]
  rw [View.ld_unit_zero zero3 inb_S1x256x384_S1x256x384_0_0_0 x1, View.ld_unit_zero zero2 inb_S384x128_S384x128_0_0 x3,
    View.ld_unit_zero zero2 inb_S1x128_S1x128_0_0 x4, View.ld_unit_zero zero3 inb_S1x128x384_S1x128x384_0_0_0 x0,
    View.ld_unit_zero zero2 inb_S384x128_S384x128_0_0 x2]

/-- Eight rows of the scratch, loaded back, are eight rows of the first projection. -/
theorem scratch_rows (k : Fin k0_t1_loop.trips) :
    View.readAt (Elt F) arg8.view (Rect.unit (s := S128x128) (k0_off1 k) S8x128.size (k0_off1_inb k)).toLoadRect (scratchAfter arg8 x0 x2)
      = View.ld (k0_pay1 x0 x2) (Rect.unit (s := S128x128) (k0_off1 k) S8x128.size (k0_off1_inb k)) := by
  rw [View.readAt_eq_ld, View.read_writes_junk_eq_canon, View.canon_unit_zero zero2]

end Run

section Agree

variable (c : Dev nD) (i : grid0.Coords) (arg2 : Memref sig .tc .vmem S1x128x384 .f32) (harg2 : arg2.IsWhole) (arg3 : Memref sig .tc .vmem S1x256x384 .f32) (harg3 : arg3.IsWhole) (arg4 : Memref sig .tc .vmem S384x128 .f32) (harg4 : arg4.IsWhole) (arg5 : Memref sig .tc .vmem S384x128 .f32) (harg5 : arg5.IsWhole) (arg6 : Memref sig .tc .vmem S1x128 .f32) (harg6 : arg6.IsWhole) (arg7 : Memref sig .tc .vmem S1x128x256x128 .f32) (harg7 : arg7.IsWhole) (arg8 : Memref sig .tc .vmem S128x128 .f32) (harg8 : arg8.IsWhole) (x0 : Vec F S1x128x384 .f32) (x1 : Vec F S1x256x384 .f32) (x2 : Vec F S384x128 .f32) (x3 : Vec F S384x128 .f32) (x4 : Vec F S1x128 .f32)

/-- Trip `k`'s piece agrees, where it lies, with the block's one function: the index it places at local position `x` has
    row plane `8k + x₁`, whose trip is `k` and whose position in the group of eight is `x₁`. -/
theorem tripPiece_agree (k : Fin k0_t1_loop.trips) (x : S1x8x256x128.Idx) :
    k0_pay2 x1 x3 x4 (View.readAt (Elt F) arg8.view (Rect.unit (s := S128x128) (k0_off1 k) S8x128.size (k0_off1_inb k)).toLoadRect (scratchAfter arg8 x0 x2)) x
      = blockOut x0 x1 x2 x3 x4 ((Rect.unit (s := S1x128x256x128) (k0_off2 k) S1x8x256x128.size (k0_off2_inb k)).emb x) := by
  rw [scratch_rows]
  have hoff := k0_off2_eq k
  have hk : k.val < 16 := Nat.lt_of_lt_of_le k.isLt (le_of_eq trips_eq)
  have hx0 : (x 0).val < 1 := (x 0).isLt
  have hx1 : (x 1).val < 8 := (x 1).isLt
  have e1 : (((Rect.unit (s := S1x128x256x128) (k0_off2 k) S1x8x256x128.size (k0_off2_inb k)).emb x) 1).val = 8 * k.val + (x 1).val := by
    show k0_off2 k 1 + 1 * (x 1).val = _
    rw [hoff]; show 8 * k.val + 1 * (x 1).val = _; omega
  have e2 : (((Rect.unit (s := S1x128x256x128) (k0_off2 k) S1x8x256x128.size (k0_off2_inb k)).emb x) 2).val = (x 2).val := by
    show k0_off2 k 2 + 1 * (x 2).val = _
    rw [hoff]; show 0 + 1 * (x 2).val = _; omega
  have e3 : (((Rect.unit (s := S1x128x256x128) (k0_off2 k) S1x8x256x128.size (k0_off2_inb k)).emb x) 3).val = (x 3).val := by
    show k0_off2 k 3 + 1 * (x 3).val = _
    rw [hoff]; show 0 + 1 * (x 3).val = _; omega
  unfold blockOut
  have ht : tripOf (((Rect.unit (s := S1x128x256x128) (k0_off2 k) S1x8x256x128.size (k0_off2_inb k)).emb x) 1) = k :=
    Fin.ext (by show (((Rect.unit (s := S1x128x256x128) (k0_off2 k) S1x8x256x128.size (k0_off2_inb k)).emb x) 1).val / 8 = k.val; omega)
  show planes x0 x1 x2 x3 x4 k x = _
  refine (congr (congrArg (planes x0 x1 x2 x3 x4) ht) ?_).symm
  funext a
  match a with
  | ⟨0, _⟩ => exact Fin.ext (by show 0 = (x 0).val; omega)
  | ⟨1, _⟩ => exact Fin.ext (by show (((Rect.unit (s := S1x128x256x128) (k0_off2 k) S1x8x256x128.size (k0_off2_inb k)).emb x) 1).val % 8 = (x 1).val; omega)
  | ⟨2, _⟩ => exact Fin.ext e2
  | ⟨3, _⟩ => exact Fin.ext e3

/-- Every piece the run finds agrees with `blockOut` where it lies. -/
theorem run_agree (p : View.Piece (Elt F) S1x128x256x128 .f32)
    (hp : p ∈ (kernelRun (F := F) c i arg2 harg2 arg3 harg3 arg4 harg4 arg5 harg5 arg6 harg6 arg7 harg7 arg8 harg8 x0 x1 x2 x3 x4).1) (x : p.1.shape.Idx) :
    p.2 x = blockOut x0 x1 x2 x3 x4 (p.1.emb x) := by
  rw [run_pieces] at hp
  obtain ⟨k, -, rfl⟩ := (mem_pb _ _ _ _ arg2 harg2 arg3 harg3 arg4 harg4 arg5 harg5 arg6 harg6 arg7 harg7 arg8 harg8 _ _ _ _ _ le_rfl _).mp hp
  exact tripPiece_agree arg8 x0 x1 x2 x3 x4 k x

/-- The pieces cover the block: an index of row plane `r` lies under the piece of trip `r / 8`. -/
theorem run_cover (y : S1x128x256x128.Idx) :
    ∃ p ∈ (kernelRun (F := F) c i arg2 harg2 arg3 harg3 arg4 harg4 arg5 harg5 arg6 harg6 arg7 harg7 arg8 harg8 x0 x1 x2 x3 x4).1, y ∈ p.1.set := by
  rw [run_pieces]
  refine ⟨tripPiece arg8 x1 x3 x4 (scratchAfter arg8 x0 x2) (tripOf (y 1)),
    (mem_pb _ _ _ _ arg2 harg2 arg3 harg3 arg4 harg4 arg5 harg5 arg6 harg6 arg7 harg7 arg8 harg8 _ _ _ _ _ le_rfl _).mpr ⟨tripOf (y 1), (tripOf (y 1)).isLt, rfl⟩, ?_⟩
  show y ∈ (Rect.unit (s := S1x128x256x128) (k0_off2 (tripOf (y 1))) S1x8x256x128.size (k0_off2_inb (tripOf (y 1)))).set
  rw [Rect.mem_set_unit]
  have hoff := k0_off2_eq (tripOf (y 1))
  have h0 : (y 0).val < 1 := (y 0).isLt
  have h1 : (y 1).val < 128 := (y 1).isLt
  have h2 : (y 2).val < 256 := (y 2).isLt
  have h3 : (y 3).val < 128 := (y 3).isLt
  have hv : (tripOf (y 1)).val = (y 1).val / 8 := rfl
  intro a
  rw [hoff]
  match a with
  | ⟨0, _⟩ => show (0 : ℕ) ≤ (y 0).val ∧ (y 0).val < 0 + 1; omega
  | ⟨1, _⟩ => show 8 * (tripOf (y 1)).val ≤ (y 1).val ∧ (y 1).val < 8 * (tripOf (y 1)).val + 8; omega
  | ⟨2, _⟩ => show (0 : ℕ) ≤ (y 2).val ∧ (y 2).val < 0 + 256; omega
  | ⟨3, _⟩ => show (0 : ℕ) ≤ (y 3).val ∧ (y 3).val < 0 + 128; omega

/-- So after the body the output's buffer reads `blockOut` of the input blocks, whatever it held before. -/
theorem run_reads (f : BufTy.Contents (Elt F) arg7.view.ty) :
    arg7.view.read (Elt F) (arg7.view.writes (Elt F) f (kernelRun (F := F) c i arg2 harg2 arg3 harg3 arg4 harg4 arg5 harg5 arg6 harg6 arg7 harg7 arg8 harg8 x0 x1 x2 x3 x4).1)
      = blockOut x0 x1 x2 x3 x4 := by
  rw [View.read_writes_eq_canon _ _ _ (run_cover c i arg2 harg2 arg3 harg3 arg4 harg4 arg5 harg5 arg6 harg6 arg7 harg7 arg8 harg8 x0 x1 x2 x3 x4)]
  funext y
  exact View.canon_apply_of_pieces (blockOut x0 x1 x2 x3 x4) _ (run_agree c i arg2 harg2 arg3 harg3 arg4 harg4 arg5 harg5 arg6 harg6 arg7 harg7 arg8 harg8 x0 x1 x2 x3 x4) y
    (run_cover c i arg2 harg2 arg3 harg3 arg4 harg4 arg5 harg5 arg6 harg6 arg7 harg7 arg8 harg8 x0 x1 x2 x3 x4 y)

end Agree

end Cert.KernelIdeal.Frm

end
-- ==== Proof.IdealFrame.lean ====
/-
  The frame of the pair-update program: its proof data, the body obligation and the run. The region's six windows are
  two blocks of the one row array `s` (the rows of the block's row range and of its column range), the two halves of
  the weights, the bias row, and the output block. The two windows on `s` only read it, so the array's full share is
  dealt in halves between them at the region's entry; every other array is held whole. After the body each input's
  buffer holds its block still and the output's holds `blockOut` of the five input blocks; between points the body
  keeps nothing (its scratch is rewritten at every point before it is read).
-/
import proofs.«122135_j48524540510542_2_alg».proof.Proof.IdealPieces
import proofs.«122135_j48524540510542_2_alg».proof.Proof.LibSharedWindows
import proofs.«122135_j48524540510542_2_alg».proof.Proof.LibSharedFrame

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point `t` each
    input's buffer at its block and the output's at `blockOut` of the input blocks; the invariant the core's scoped
    rest (the scratch at anything); the row array held in halves by its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = blockOut (iblk m c 0 t) (iblk m c 1 t) (iblk m c 2 t) (iblk m c 3 t) (iblk m c 4 t) := by
  dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-- The scratch, at anything, is the core's scoped rest. -/
theorem scratch_eq (c : Dev nD) :
    (Pipeline.scopedRest (Ix := Unit) (Name := ℕ) (U := UR sig nD τ) (Lvl := ℕ) (Val := Elt F) spec0 c : sProp 𝕄)
      = iprop(∃ f, (msS).view.loc (c : Thread nD τ) ↦[(msS).view.set]{fullShare} f) := by
  rw [scopedRest0_eq c, (hsS).set_eq_univ]

/-- The body at any point: the inputs' memrefs hold their blocks, so the run applies; the scratch is taken from the
    invariant at anything and handed back at anything; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5,
    show (dats m 0 c).Φ t.castSucc = Pipeline.scopedRest (Ix := Unit) (Name := ℕ) (U := UR sig nD τ) (Lvl := ℕ) (Val := Elt F) spec0 c from rfl,
    scratch_eq]
  iintro ⟨HΦ, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HΦ]; · iexact HΦ
  iintro ⟨H0, H1, H2, H3, H4, ⟨%e5, H5⟩, HΦ⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact run_reads c _ _ _ _ _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at the region's entry -/

/-- A window's array, whole, at a share. -/
theorem arr_pointsTo (c : Dev nD) (w : Fin cfg0.W) (q : PosShare TreeShare) (X : Buf (Elt F) ((cfg0.win w).arr.view.loc (c : Thread nD τ))) :
    ((cfg0.win w).arr.view.loc (c : Thread nD τ) ↦[(cfg0.win w).arr.view.set]{q} X : sProp 𝕄)
      = (((c : Thread nD τ).loc (Pipeline.arrRef spec0 w)) ↦{q} X) := by
  rw [(arr_whole0 w).set_eq_univ]

/-- The distinct buffers behind the six windows' arrays are five: the row array, the two halves of the weights, the bias
    row and the output. -/
theorem arrBufs0_eq (c : Dev nD) :
    (Pipeline.arrBufs spec0 c (V m c) : sProp 𝕄)
      = iprop((((c : Thread nD τ).loc main_arg0) ↦{fullShare} V m c main_arg0) ∗ (((c : Thread nD τ).loc main_v0) ↦{fullShare} V m c main_v0)
          ∗ (((c : Thread nD τ).loc main_v1) ↦{fullShare} V m c main_v1) ∗ (((c : Thread nD τ).loc main_v2) ↦{fullShare} V m c main_v2)
          ∗ (((c : Thread nD τ).loc main_v3) ↦{fullShare} V m c main_v3)) :=
  Cert.SharedWindows.arrBufs_eq_of_list spec0 c (V m c) [main_arg0, main_v0, main_v1, main_v2, main_v3] (by decide) (by decide)

/-- The shares the proof data hold the arrays at: the row array in halves, the others whole. -/
theorem share0 (c : Dev nD) : (dats m 0 c).share 0 = fullShare.left := by unfold Dat.share; rfl
theorem share1 (c : Dev nD) : (dats m 0 c).share 1 = fullShare.right := by unfold Dat.share; rfl
theorem share2 (c : Dev nD) : (dats m 0 c).share 2 = fullShare := by unfold Dat.share; rfl
theorem share3 (c : Dev nD) : (dats m 0 c).share 3 = fullShare := by unfold Dat.share; rfl
theorem share4 (c : Dev nD) : (dats m 0 c).share 4 = fullShare := by unfold Dat.share; rfl
theorem share5 (c : Dev nD) : (dats m 0 c).share 5 = fullShare := by unfold Dat.share; rfl
/-- Before any write-back an array holds its entry contents. -/
theorem arrAt_zero (c : Dev nD) (w : Fin cfg0.W) : (dats m 0 c).arrAt w 0 = V m c (Pipeline.arrRef spec0 w) := A_eq m c w

/-- The five distinct buffers behind the six windows' arrays, each whole at its entry contents, make the proof data's
    arrays: the row array's full share splits into the halves its two windows hold. -/
theorem hsplit (c : Dev nD) :
    (Pipeline.arrBufs spec0 c (V m c) : sProp 𝕄) ⊢ (dats m 0 c).arrays ((dats m 0 c).arrAt · 0) := by
  rw [arrBufs0_eq]
  unfold Dat.arrays
  rw [bigSep_W0]
  beta_reduce
  rw [arr_pointsTo c 0, arr_pointsTo c 1, arr_pointsTo c 2, arr_pointsTo c 3, arr_pointsTo c 4, arr_pointsTo c 5,
    share0, share1, share2, share3, share4, share5,
    arrAt_zero m c 0, arrAt_zero m c 1, arrAt_zero m c 2, arrAt_zero m c 3, arrAt_zero m c 4, arrAt_zero m c 5]
  iintro ⟨H0, H2, H3, H4, H5⟩
  ihave H0' := (pointsTo_share (PosShare.mem_left_op_right fullShare)).1 $$ H0
  icases H0' with ⟨H0l, H0r⟩
  isplitl [H0l]; · iexact H0l
  isplitl [H0r]; · iexact H0r
  isplitl [H2]; · iexact H2
  isplitl [H3]; · iexact H3
  isplitl [H4]; · iexact H4
  iexact H5

/-! ## The run and the frame -/

set_option backward.isDefEq.respectTransparency.types false in
/-- At the compiled mesh, for any values, from any memory with zero counters: every weakly fair execution of @main
    terminates, and every final state has every array of the pipeline at what the proof data compute and every other
    unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := fun _ => .rfl) (hout := fun _ => .rfl)

/-- The frame claim's post: the four argument arrays end as launched. The row array is read off either of its
    windows; the unused pair array, the weights and the bias bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 rfl (by decide))).trans (V_main_arg1 m c),
      ((h c).2 main_arg2 (Pipeline.mem_restRefs_of main_arg2 rfl (by decide))).trans (V_main_arg2 m c),
      ((h c).2 main_arg3 (Pipeline.mem_restRefs_of main_arg3 rfl (by decide))).trans (V_main_arg3 m c)⟩) (run_main m ρ)

end Cert.KernelIdeal.Frm

end
-- ==== Proof.PairSpec.lean ====
/-
  The function both programs compute, over the extended reals. With `s` a [1,768,384] array of rows, `W` a [768,128]
  matrix read as two stacked [384,128] halves and `b` a vector of 128 entries, the pair array is

      out[0, i, j, f] = (∑ d, s[0,i,d] · W[d,f]) + ((∑ d, s[0,j,d] · W[384+d,f]) + b[f]).

  Each of the two sums runs over the 384 coordinates of a row, in one fixed order; the grouping of the three summands is
  the one written here (addition of extended reals is associative, so any grouping names the same function).
-/
import Idealize.ShloMosaic.PureOps.Ideal
import Idealize.ShloMosaic.Lib.ValueIdx

noncomputable section

open scoped BigOperators

namespace Cert.PairSum

open Idealize.ShloMosaic Idealize.ShloMosaic.ValueIdx

abbrev Srows : Shape := ⟨3, ![1, 768, 384]⟩
abbrev Swts : Shape := ⟨2, ![768, 128]⟩
abbrev Sbias : Shape := ⟨1, ![128]⟩
abbrev Spair : Shape := ⟨4, ![1, 768, 768, 128]⟩

/-- Row `d` of the upper half of the weights. -/
abbrev lo (d : Fin 384) : Fin 768 := ⟨d.val, by omega⟩
/-- Row `d` of the lower half of the weights. -/
abbrev hi (d : Fin 384) : Fin 768 := ⟨384 + d.val, by omega⟩

/-- Row `r` of `s` projected through the upper half of `W`, at feature `f`. -/
def projLo (s : Srows.Idx → EReal) (W : Swts.Idx → EReal) (r : Fin 768) (f : Fin 128) : EReal :=
  ∑ d : Fin 384, s (ix3 (0 : Fin 1) r d) * W (ix2 (lo d) f)

/-- Row `r` of `s` projected through the lower half of `W`, at feature `f`. -/
def projHi (s : Srows.Idx → EReal) (W : Swts.Idx → EReal) (r : Fin 768) (f : Fin 128) : EReal :=
  ∑ d : Fin 384, s (ix3 (0 : Fin 1) r d) * W (ix2 (hi d) f)

/-- One entry of the pair array. -/
def pairAt (s : Srows.Idx → EReal) (W : Swts.Idx → EReal) (b : Sbias.Idx → EReal) (i j : Fin 768) (f : Fin 128) : EReal :=
  projLo s W i f + (projHi s W j f + b (ix1 f))

/-- The pair array. -/
def pair (s : Srows.Idx → EReal) (W : Swts.Idx → EReal) (b : Sbias.Idx → EReal) : Spair.Idx → EReal :=
  fun idx => pairAt s W b (idx 1) (idx 2) (idx 3)

theorem pair_ix4 (s : Srows.Idx → EReal) (W : Swts.Idx → EReal) (b : Sbias.Idx → EReal) (z : Fin 1) (i j : Fin 768) (f : Fin 128) :
    pair s W b (ix4 z i j f) = pairAt s W b i j f := rfl

end Cert.PairSum

end
-- ==== Proof.Payload.lean ====
/-
  The two values the kernel body stores, read at one index, over the extended reals (where a change of float format is
  the identity and a matrix product into a zero accumulator is the plain sum of products).

  The first is the left projection of a block of 128 rows: entry (p, f) is ∑ d, rows[0,p,d] · W₁[d,f].
  The second is one chunk of eight rows of the output block: entry (0, r, c, f) is the chunk's row r of the stored left
  projection at f, plus the right projection of row c at f with the bias added to it:
      left[r,f] + ((∑ d, rows'[0,c,d] · W₂[d,f]) + bias[0,f]).
  Everything else in the two terms is layout: unit axes added or dropped by shape casts, and broadcasts along an axis
  of extent one.
-/
import proofs.«122135_j48524540510542_2_alg».proof.Proof.Gen.KernelIdeal.Skeleton
import proofs.«122135_j48524540510542_2_alg».proof.Proof.PairSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.PairSum.Payload

open Cert.KernelIdeal Cert.KernelIdeal.Gen Idealize.ShloMosaic Idealize.ShloMosaic.ValueIdx

/-! ## Layout operations with a unit axis in the middle or in front -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, k, j)`, the operand at `(i, 0, j)`. -/
theorem broadcastTo_a1b_acb_apply {a c b : ℕ} (x : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, k, j)`, the operand at `(0, k, j)`. -/
theorem broadcastTo_1cb_acb_apply {a c b : ℕ} (x : (⟨3, ![1, c, b]⟩ : Shape).Idx → α)
    (h : (⟨3, ![1, c, b]⟩ : Shape).Broadcasts ⟨3, ![a, c, b]⟩) (i : Fin a) (k : Fin c) (j : Fin b) :
    broadcastTo ⟨3, ![a, c, b]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if c = 1 then 0 else k.val
    split
    · have := k.isLt; omega
    · rfl
  | ⟨2, _⟩ =>
    show j.val = if b = 1 then 0 else j.val
    split
    · have := j.isLt; omega
    · rfl

end Layout

/-! ## The two matrix products at an index

Each is a product of an `[M, 384]` matrix with a `[384, 128]` matrix into the zero matrix; the contraction shape has the
one axis of extent 384, and the sum over it is re-indexed by that axis's coordinate. -/

/-- Off its contracted axis the left operand's index follows the result's row. -/
theorem dot_rows128_lhs_row (i : S128x128.Idx) (q : dot_S128x384_S384x128_S128x128_1_0_0_1_n_n.contr.Idx) : (dot_S128x384_S384x128_S128x128_1_0_0_1_n_n.lhsIdx i q 0).val = (i 0).val := by
  unfold DotDims.lhsIdx
  rw [dif_neg (show ¬(0 : Fin S128x384.rank) ∈ dot_S128x384_S384x128_S128x128_1_0_0_1_n_n.lhsBatch by decide),
    dif_pos (show (0 : Fin S128x384.rank) ∈ dot_S128x384_S384x128_S128x128_1_0_0_1_n_n.lhsNonContracting by decide)]
  rfl

/-- Off its contracted axis the right operand's index follows the result's column. -/
theorem dot_rows128_rhs_col (i : S128x128.Idx) (q : dot_S128x384_S384x128_S128x128_1_0_0_1_n_n.contr.Idx) : (dot_S128x384_S384x128_S128x128_1_0_0_1_n_n.rhsIdx i q 1).val = (i 1).val := by
  unfold DotDims.rhsIdx
  rw [dif_neg (show ¬(1 : Fin S384x128.rank) ∈ dot_S128x384_S384x128_S128x128_1_0_0_1_n_n.rhsBatch by decide),
    dif_pos (show (1 : Fin S384x128.rank) ∈ dot_S128x384_S384x128_S128x128_1_0_0_1_n_n.rhsNonContracting by decide)]
  rfl

/-- The product of the 128-row block at `(p, f)`: the sum over the 384 contracted coordinates. -/
theorem dot_rows128_apply (L : FVec Ideal S128x384 .bf16) (R : FVec Ideal S384x128 .bf16) (p : Fin 128) (f : Fin 128) :
    matmul dot_S128x384_S384x128_S128x128_1_0_0_1_n_n none L R (constant (F := Ideal) S128x128 .f32 0x00000000#32) (ix2 p f)
      = ∑ d : Fin 384, L (ix2 p d) * R (ix2 d f) := by
  refine (Ideal.matmul_constant_zero_apply dot_S128x384_S384x128_S128x128_1_0_0_1_n_n none L R (ix2 p f)).trans ?_
  rw [← Equiv.sum_comp (contrEquiv1 dot_S128x384_S384x128_S128x128_1_0_0_1_n_n 384 rfl rfl).symm]
  refine Finset.sum_congr rfl fun k _ => ?_
  have hk := contrEquiv1_symm_val dot_S128x384_S384x128_S128x128_1_0_0_1_n_n 384 rfl rfl k
  have el : dot_S128x384_S384x128_S128x128_1_0_0_1_n_n.lhsIdx (ix2 p f) ((contrEquiv1 dot_S128x384_S384x128_S128x128_1_0_0_1_n_n 384 rfl rfl).symm k) = ix2 p k :=
    funext fun a => Fin.ext (by
      match a with
      | ⟨0, _⟩ => exact dot_rows128_lhs_row _ _
      | ⟨1, _⟩ => exact (dot_S128x384_S384x128_S128x128_1_0_0_1_n_n.lhsIdx_val_of_single rfl _ _).trans hk)
  have er : dot_S128x384_S384x128_S128x128_1_0_0_1_n_n.rhsIdx (ix2 p f) ((contrEquiv1 dot_S128x384_S384x128_S128x128_1_0_0_1_n_n 384 rfl rfl).symm k) = ix2 k f :=
    funext fun a => Fin.ext (by
      match a with
      | ⟨0, _⟩ => exact (dot_S128x384_S384x128_S128x128_1_0_0_1_n_n.rhsIdx_val_of_single rfl _ _).trans hk
      | ⟨1, _⟩ => exact dot_rows128_rhs_col _ _)
  rw [el, er]

/-- Off its contracted axis the left operand's index follows the result's row. -/
theorem dot_rows256_lhs_row (i : S256x128.Idx) (q : dot_S256x384_S384x128_S256x128_1_0_0_1_n_n.contr.Idx) : (dot_S256x384_S384x128_S256x128_1_0_0_1_n_n.lhsIdx i q 0).val = (i 0).val := by
  unfold DotDims.lhsIdx
  rw [dif_neg (show ¬(0 : Fin S256x384.rank) ∈ dot_S256x384_S384x128_S256x128_1_0_0_1_n_n.lhsBatch by decide),
    dif_pos (show (0 : Fin S256x384.rank) ∈ dot_S256x384_S384x128_S256x128_1_0_0_1_n_n.lhsNonContracting by decide)]
  rfl

/-- Off its contracted axis the right operand's index follows the result's column. -/
theorem dot_rows256_rhs_col (i : S256x128.Idx) (q : dot_S256x384_S384x128_S256x128_1_0_0_1_n_n.contr.Idx) : (dot_S256x384_S384x128_S256x128_1_0_0_1_n_n.rhsIdx i q 1).val = (i 1).val := by
  unfold DotDims.rhsIdx
  rw [dif_neg (show ¬(1 : Fin S384x128.rank) ∈ dot_S256x384_S384x128_S256x128_1_0_0_1_n_n.rhsBatch by decide),
    dif_pos (show (1 : Fin S384x128.rank) ∈ dot_S256x384_S384x128_S256x128_1_0_0_1_n_n.rhsNonContracting by decide)]
  rfl

/-- The product of the 256-row block at `(p, f)`: the sum over the 384 contracted coordinates. -/
theorem dot_rows256_apply (L : FVec Ideal S256x384 .bf16) (R : FVec Ideal S384x128 .bf16) (p : Fin 256) (f : Fin 128) :
    matmul dot_S256x384_S384x128_S256x128_1_0_0_1_n_n none L R (constant (F := Ideal) S256x128 .f32 0x00000000#32) (ix2 p f)
      = ∑ d : Fin 384, L (ix2 p d) * R (ix2 d f) := by
  refine (Ideal.matmul_constant_zero_apply dot_S256x384_S384x128_S256x128_1_0_0_1_n_n none L R (ix2 p f)).trans ?_
  rw [← Equiv.sum_comp (contrEquiv1 dot_S256x384_S384x128_S256x128_1_0_0_1_n_n 384 rfl rfl).symm]
  refine Finset.sum_congr rfl fun k _ => ?_
  have hk := contrEquiv1_symm_val dot_S256x384_S384x128_S256x128_1_0_0_1_n_n 384 rfl rfl k
  have el : dot_S256x384_S384x128_S256x128_1_0_0_1_n_n.lhsIdx (ix2 p f) ((contrEquiv1 dot_S256x384_S384x128_S256x128_1_0_0_1_n_n 384 rfl rfl).symm k) = ix2 p k :=
    funext fun a => Fin.ext (by
      match a with
      | ⟨0, _⟩ => exact dot_rows256_lhs_row _ _
      | ⟨1, _⟩ => exact (dot_S256x384_S384x128_S256x128_1_0_0_1_n_n.lhsIdx_val_of_single rfl _ _).trans hk)
  have er : dot_S256x384_S384x128_S256x128_1_0_0_1_n_n.rhsIdx (ix2 p f) ((contrEquiv1 dot_S256x384_S384x128_S256x128_1_0_0_1_n_n 384 rfl rfl).symm k) = ix2 k f :=
    funext fun a => Fin.ext (by
      match a with
      | ⟨0, _⟩ => exact (dot_S256x384_S384x128_S256x128_1_0_0_1_n_n.rhsIdx_val_of_single rfl _ _).trans hk
      | ⟨1, _⟩ => exact dot_rows256_rhs_col _ _)
  rw [el, er]

/-! ## The payloads at an index -/

/-- The stored left projection at `(p, f)`. -/
theorem pay1_apply (v0 : Vec Ideal S1x128x384 .f32) (v6 : Vec Ideal S384x128 .f32) (p : Fin 128) (f : Fin 128) :
    k0_pay1 (F := Ideal) v0 v6 (ix2 p f) = ∑ d : Fin 384, v0 (ix3 (0 : Fin 1) p d) * v6 (ix2 d f) := by
  unfold k0_pay1
  refine (congrFun (shapeCast_self _ _) (ix2 p f)).trans ?_
  refine (dot_rows128_apply _ _ p f).trans ?_
  refine Finset.sum_congr rfl fun d _ => ?_
  refine congrArg₂ (· * ·) ?_ ?_
  · exact shapeCast_1ab_ab_apply v0 _ p d
  · exact congrFun (shapeCast_self v6 _) (ix2 d f)

/-- One chunk of the output block at `(0, r, c, f)`. -/
theorem pay2_apply (v3 : Vec Ideal S1x256x384 .f32) (v9 : Vec Ideal S384x128 .f32) (v14 : Vec Ideal S1x128 .f32)
    (v26 : Vec Ideal S8x128 .f32) (r : Fin 8) (c : Fin 256) (f : Fin 128) :
    k0_pay2 (F := Ideal) v3 v9 v14 v26 (ix4 (0 : Fin 1) r c f)
      = v26 (ix2 r f) + ((∑ d : Fin 384, v3 (ix3 (0 : Fin 1) c d) * v9 (ix2 d f)) + v14 (ix2 (0 : Fin 1) f)) := by
  unfold k0_pay2
  refine (shapeCast_abc_1abc_apply _ _ (0 : Fin 1) r c f).trans ?_
  refine congrArg₂ (· + ·) ?_ ?_
  · refine (broadcastTo_a1b_acb_apply _ _ r c f).trans ?_
    exact shapeCast_ab_a1b_apply v26 _ r (0 : Fin 1) f
  · refine (broadcastTo_1cb_acb_apply _ _ r c f).trans ?_
    refine (shapeCast_ab_1ab_apply _ _ (0 : Fin 1) c f).trans ?_
    refine congrArg₂ (· + ·) ?_ ?_
    · refine (dot_rows256_apply _ _ c f).trans ?_
      refine Finset.sum_congr rfl fun d _ => ?_
      refine congrArg₂ (· * ·) ?_ ?_
      · exact shapeCast_1ab_ab_apply v3 _ c d
      · exact congrFun (shapeCast_self v9 _) (ix2 d f)
    · refine (broadcastTo_1b_ab_apply _ _ c f).trans ?_
      exact congrFun (shapeCast_self v14 _) (ix2 (0 : Fin 1) f)

end Cert.PairSum.Payload

end
-- ==== Proof.BlockValue.lean ====
/-
  The output block of the pair-update body, entry by entry. Entry (0, r, c, f) belongs to the group of eight row planes
  written on trip r / 8, at plane r % 8 of that group. That plane holds row 8·(r / 8) + r % 8 = r of the first
  projection (the rows of the first block through the upper weights) spread along the columns, plus row c of the second
  projection (the rows of the second block through the lower weights) with the bias added:

      (∑ d, rows[0,r,d] · W₁[d,f]) + ((∑ d, rows'[0,c,d] · W₂[d,f]) + bias[0,f]).
-/
import proofs.«122135_j48524540510542_2_alg».proof.Proof.IdealBlock
import proofs.«122135_j48524540510542_2_alg».proof.Proof.Payload
import Idealize.ShloMosaic.Lib.Pipeline.FrameBody
import Idealize.ShloMosaic.Lib.ValueIdx

noncomputable section

open scoped BigOperators

namespace Cert.PairSum.BlockValue

open Cert.KernelIdeal Cert.KernelIdeal.Gen Cert.KernelIdeal.Frm Idealize.ShloMosaic Idealize.ShloMosaic.ValueIdx

/-- Row `r % 8` of the eight rows that start at row `8 · (r / 8)` is row `r`: the index the chunk of trip `r / 8` reads
    the stored projection at. -/
theorem chunk_index (r : Fin 128) (f : Fin 128) :
    (Rect.unit (s := S128x128) (k0_off1 (tripOf r)) S8x128.size (k0_off1_inb (tripOf r))).idx
        (ix2 (⟨r.val % 8, Nat.mod_lt _ (by decide)⟩ : Fin 8) f) = ix2 r f := by
  have h := k0_off1_eq (tripOf r)
  funext a
  refine Fin.ext ?_
  match a with
  | ⟨0, _⟩ =>
    show k0_off1 (tripOf r) 0 + 1 * (r.val % 8) = r.val
    rw [h]
    show 8 * (r.val / 8) + 1 * (r.val % 8) = r.val
    omega
  | ⟨1, _⟩ =>
    show k0_off1 (tripOf r) 1 + 1 * f.val = f.val
    rw [h]
    show 0 + 1 * f.val = f.val
    omega

/-- The output block at `(0, r, c, f)`. -/
theorem blockOut_apply (x0 : Vec Ideal S1x128x384 .f32) (x1 : Vec Ideal S1x256x384 .f32) (x2 x3 : Vec Ideal S384x128 .f32)
    (x4 : Vec Ideal S1x128 .f32) (r : Fin 128) (c : Fin 256) (f : Fin 128) :
    blockOut (F := Ideal) x0 x1 x2 x3 x4 (ix4 (0 : Fin 1) r c f)
      = (∑ d : Fin 384, x0 (ix3 (0 : Fin 1) r d) * x2 (ix2 d f))
        + ((∑ d : Fin 384, x1 (ix3 (0 : Fin 1) c d) * x3 (ix2 d f)) + x4 (ix2 (0 : Fin 1) f)) := by
  show planes x0 x1 x2 x3 x4 (tripOf r) (ix4 (0 : Fin 1) (⟨r.val % 8, Nat.mod_lt _ (by decide)⟩ : Fin 8) c f) = _
  unfold planes
  refine (Cert.PairSum.Payload.pay2_apply x1 x3 x4 _ (⟨r.val % 8, Nat.mod_lt _ (by decide)⟩ : Fin 8) c f).trans ?_
  refine congrArg₂ (· + ·) ?_ rfl
  show k0_pay1 x0 x2 ((Rect.unit (s := S128x128) (k0_off1 (tripOf r)) S8x128.size (k0_off1_inb (tripOf r))).idx
      (ix2 (⟨r.val % 8, Nat.mod_lt _ (by decide)⟩ : Fin 8) f)) = _
  exact (congrArg (k0_pay1 x0 x2) (chunk_index r f)).trans (Cert.PairSum.Payload.pay1_apply x0 x2 r f)

end Cert.PairSum.BlockValue

end
-- ==== Proof.EntryValue.lean ====
/-
  What the region finds in the three arrays the host wrote before it: the upper and the lower half of the weights, rows
  0 … 383 and 384 … 767 of the weight matrix, and the bias laid out as one row. Entry (d, f) of the upper half is entry
  (d, f) of the weights, entry (d, f) of the lower half is entry (384 + d, f), and entry (0, f) of the bias row is entry f
  of the bias: a reshape keeps the row-major position, and both positions are f.
-/
import proofs.«122135_j48524540510542_2_alg».proof.Proof.IdealKit
import proofs.«122135_j48524540510542_2_alg».proof.Proof.PairSpec
import Idealize.ShloMosaic.Lib.StableHlo.Run
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- The upper half as the region finds it: the slice of the launched weights from row 0. -/
theorem V_upper_eq (c : Dev nD) :
    (V m c main_v0 : S384x128.Idx → Elt F .f32)
      = extractStridedSlice S384x128 ![0, 0] (m ((c : Thread nD τ).loc main_arg2) : S768x128.Idx → Elt F .f32)
          slices_S768x128_S384x128_0_0 := by
  dsimp only [V, hostOps0]
  after_results

/-- The lower half as the region finds it: the slice of the launched weights from row 384. -/
theorem V_lower_eq (c : Dev nD) :
    (V m c main_v1 : S384x128.Idx → Elt F .f32)
      = extractStridedSlice S384x128 ![384, 0] (m ((c : Thread nD τ).loc main_arg2) : S768x128.Idx → Elt F .f32)
          slices_S768x128_S384x128_384_0 := by
  dsimp only [V, hostOps0]
  after_results

/-- The bias row as the region finds it: the launched bias reshaped to one row. -/
theorem V_biasRow_eq (c : Dev nD) :
    (V m c main_v2 : S1x128.Idx → Elt F .f32)
      = shapeCast S1x128 (m ((c : Thread nD τ).loc main_arg3) : S128.Idx → Elt F .f32) shapeCasts_S128_S1x128 := by
  dsimp only [V, hostOps0]
  after_results
  rfl

/-- Entry `(d, f)` of the upper half is entry `(d, f)` of the weights. -/
theorem V_upper (c : Dev nD) (d : Fin 384) (f : Fin 128) :
    (V m c main_v0 : S384x128.Idx → Elt F .f32) (ix2 d f)
      = (m ((c : Thread nD τ).loc main_arg2) : S768x128.Idx → Elt F .f32) (ix2 (Cert.PairSum.lo d) f) := by
  rw [V_upper_eq]
  exact extractStridedSlice_apply ![0, 0] _ slices_S768x128_S384x128_0_0 (ix2 d f) (ix2 (Cert.PairSum.lo d) f) (fun a => match a with
    | ⟨0, _⟩ => by show d.val = 0 + d.val; omega
    | ⟨1, _⟩ => by show f.val = 0 + f.val; omega)

/-- Entry `(d, f)` of the lower half is entry `(384 + d, f)` of the weights. -/
theorem V_lower (c : Dev nD) (d : Fin 384) (f : Fin 128) :
    (V m c main_v1 : S384x128.Idx → Elt F .f32) (ix2 d f)
      = (m ((c : Thread nD τ).loc main_arg2) : S768x128.Idx → Elt F .f32) (ix2 (Cert.PairSum.hi d) f) := by
  rw [V_lower_eq]
  exact extractStridedSlice_apply ![384, 0] _ slices_S768x128_S384x128_384_0 (ix2 d f) (ix2 (Cert.PairSum.hi d) f) (fun a => match a with
    | ⟨0, _⟩ => by show 384 + d.val = 384 + d.val; rfl
    | ⟨1, _⟩ => by show f.val = 0 + f.val; omega)

/-- Entry `(z, f)` of the bias row is entry `f` of the bias. -/
theorem V_biasRow (c : Dev nD) (z : Fin 1) (f : Fin 128) :
    (V m c main_v2 : S1x128.Idx → Elt F .f32) (ix2 z f)
      = (m ((c : Thread nD τ).loc main_arg3) : S128.Idx → Elt F .f32) (ix1 f) := by
  rw [V_biasRow_eq]
  exact shapeCast_apply _ shapeCasts_S128_S1x128 (ix2 z f) (ix1 f) (by
    have hz : z.val = 0 := by omega
    rw [Shape.rowMajor_val_one, Shape.rowMajor_val_two]
    show f.val = z.val * 128 + f.val
    rw [hz, Nat.zero_mul, Nat.zero_add])

end Cert.KernelIdeal.Frm

end
-- ==== Proof.BlocksToArray.lean ====
/-
  From the blocks to the whole array. The grid is 6 by 3; at the point with coordinates (i, j) the body reads rows
  128·i … 128·i + 127 and rows 256·j … 256·j + 255 of the row array, both weight halves and the bias row, and writes
  back block (0, i, j, 0) of the result: entries (0, 128·i + r, 256·j + c', f). Entry (0, r, c', f) of what the body
  leaves is the left projection of row r of the first block plus the right projection of row c' of the second plus the
  bias, which is entry (128·i + r, 256·j + c', f) of the pair array of the launched arguments. Every index (0, p, q, f)
  of the result lies in the block of the point (p / 128, q / 256), and every point writes its block back, so the result
  array ends holding the pair array.
-/
import proofs.«122135_j48524540510542_2_alg».proof.Proof.IdealKit
import proofs.«122135_j48524540510542_2_alg».proof.Proof.IdealBlock
import proofs.«122135_j48524540510542_2_alg».proof.Proof.BlockValue
import proofs.«122135_j48524540510542_2_alg».proof.Proof.EntryValue
import proofs.«122135_j48524540510542_2_alg».proof.Proof.PairSpec
import Idealize.ShloMosaic.Lib.Pipeline.Value
import Idealize.ShloMosaic.Lib.ValueIdx

set_option maxRecDepth 16384

noncomputable section

open scoped BigOperators

namespace Cert.KernelIdeal.Frm

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The pair array of the launched rows, weights and bias. -/
abbrev pairOf (c : Dev nD) : Buf (Elt Ideal) ((c : Thread nD τ).loc main_v3) :=
  Cert.PairSum.pair (m ((c : Thread nD τ).loc main_arg0)) (m ((c : Thread nD τ).loc main_arg2)) (m ((c : Thread nD τ).loc main_arg3))

/-! ## The index maps over the grid

At the point with coordinates (i, j) the output block is block (0, i, j, 0) of the pair array, the first row block is
block (0, i, 0) of the rows and the second is block (0, j, 0); the two weight halves and the bias row are whole arrays.
The grid is 6 by 3. -/

theorem idx_facts : ∀ t : Fin cfg0.N,
    win0_5.index t (0 : Fin 4) = 0 ∧ win0_5.index t (3 : Fin 4) = 0
    ∧ win0_0.index t (0 : Fin 3) = 0 ∧ win0_0.index t (1 : Fin 3) = win0_5.index t (1 : Fin 4) ∧ win0_0.index t (2 : Fin 3) = 0
    ∧ win0_1.index t (0 : Fin 3) = 0 ∧ win0_1.index t (1 : Fin 3) = win0_5.index t (2 : Fin 4) ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 4) ≤ 5 ∧ win0_5.index t (2 : Fin 4) ≤ 2 :=
  (by decide +kernel : ∀ t : Fin grid0.N, _)

/-- Every block (0, q0, q1, 0) of the pair array is some point's. -/
theorem idx_onto : ∀ (q0 : Fin 6) (q1 : Fin 3), ∃ t : Fin cfg0.N, win0_5.index t = ![0, q0.val, q1.val, 0] :=
  (by decide +kernel : ∀ (q0 : Fin 6) (q1 : Fin 3), ∃ t : Fin grid0.N, win0_5.index t = ![0, q0.val, q1.val, 0])

/-! ## The input blocks at a point, read off the launched arrays -/

/-- Row `r` of the first row block at a point is row `128 · i + r` of the rows. -/
theorem iblk0_apply (c : Dev nD) (t : Fin cfg0.N) (r : Fin 128) (d : Fin 384) (i : Fin 768)
    (hi : i.val = win0_5.index t (1 : Fin 4) * 128 + r.val) :
    (iblk m c 0 t : Vec Ideal S1x128x384 .f32) (ix3 (0 : Fin 1) r d)
      = (m ((c : Thread nD τ).loc main_arg0) : S1x768x384.Idx → Elt Ideal .f32) (ix3 (0 : Fin 1) i d) := by
  obtain ⟨e50, e53, e00, e01, e02, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = 0; omega
  | ⟨1, _⟩ => show win0_0.index t (1 : Fin 3) * 128 + 1 * r.val = i.val; omega
  | ⟨2, _⟩ => show win0_0.index t (2 : Fin 3) * 384 + 1 * d.val = d.val; omega

/-- Row `c'` of the second row block at a point is row `256 · j + c'` of the rows. -/
theorem iblk1_apply (c : Dev nD) (t : Fin cfg0.N) (c' : Fin 256) (d : Fin 384) (j : Fin 768)
    (hj : j.val = win0_5.index t (2 : Fin 4) * 256 + c'.val) :
    (iblk m c 1 t : Vec Ideal S1x256x384 .f32) (ix3 (0 : Fin 1) c' d)
      = (m ((c : Thread nD τ).loc main_arg0) : S1x768x384.Idx → Elt Ideal .f32) (ix3 (0 : Fin 1) j d) := by
  obtain ⟨e50, e53, e00, e01, e02, e10, e11, e12, -⟩ := idx_facts t
  unfold iblk
  rw [View.read_apply]
  show V m c main_arg0 _ = _
  rw [V_main_arg0]
  refine congrArg _ (funext fun a => Fin.ext ?_)
  match a with
  | ⟨0, _⟩ => show win0_1.index t (0 : Fin 3) * 1 + 1 * 0 = 0; omega
  | ⟨1, _⟩ => show win0_1.index t (1 : Fin 3) * 256 + 1 * c'.val = j.val; omega
  | ⟨2, _⟩ => show win0_1.index t (2 : Fin 3) * 384 + 1 * d.val = d.val; omega

/-- The upper weights' block at a point is the upper half of the launched weights. -/
theorem iblk2_apply (c : Dev nD) (t : Fin cfg0.N) (d : Fin 384) (f : Fin 128) :
    (iblk m c 2 t : Vec Ideal S384x128 .f32) (ix2 d f)
      = (m ((c : Thread nD τ).loc main_arg2) : S768x128.Idx → Elt Ideal .f32) (ix2 (Cert.PairSum.lo d) f) := by
  obtain ⟨e50, e53, e00, e01, e02, e10, e11, e12, e20, e21, -⟩ := idx_facts t
  unfold iblk
  rw [View.read_apply]
  show V m c main_v0 _ = _
  refine (congrArg (V m c main_v0) (funext fun a => Fin.ext ?_)).trans (V_upper m c d f)
  match a with
  | ⟨0, _⟩ => show win0_2.index t (0 : Fin 2) * 384 + 1 * d.val = d.val; omega
  | ⟨1, _⟩ => show win0_2.index t (1 : Fin 2) * 128 + 1 * f.val = f.val; omega

/-- The lower weights' block at a point is the lower half of the launched weights. -/
theorem iblk3_apply (c : Dev nD) (t : Fin cfg0.N) (d : Fin 384) (f : Fin 128) :
    (iblk m c 3 t : Vec Ideal S384x128 .f32) (ix2 d f)
      = (m ((c : Thread nD τ).loc main_arg2) : S768x128.Idx → Elt Ideal .f32) (ix2 (Cert.PairSum.hi d) f) := by
  obtain ⟨e50, e53, e00, e01, e02, e10, e11, e12, e20, e21, e30, e31, -⟩ := idx_facts t
  unfold iblk
  rw [View.read_apply]
  show V m c main_v1 _ = _
  refine (congrArg (V m c main_v1) (funext fun a => Fin.ext ?_)).trans (V_lower m c d f)
  match a with
  | ⟨0, _⟩ => show win0_3.index t (0 : Fin 2) * 384 + 1 * d.val = d.val; omega
  | ⟨1, _⟩ => show win0_3.index t (1 : Fin 2) * 128 + 1 * f.val = f.val; omega

/-- The bias row's block at a point is the launched bias. -/
theorem iblk4_apply (c : Dev nD) (t : Fin cfg0.N) (f : Fin 128) :
    (iblk m c 4 t : Vec Ideal S1x128 .f32) (ix2 (0 : Fin 1) f)
      = (m ((c : Thread nD τ).loc main_arg3) : S128.Idx → Elt Ideal .f32) (ix1 f) := by
  obtain ⟨e50, e53, e00, e01, e02, e10, e11, e12, e20, e21, e30, e31, e40, e41, -⟩ := idx_facts t
  unfold iblk
  rw [View.read_apply]
  show V m c main_v2 _ = _
  refine (congrArg (V m c main_v2) (funext fun a => Fin.ext ?_)).trans (V_biasRow m c (0 : Fin 1) f)
  match a with
  | ⟨0, _⟩ => show win0_4.index t (0 : Fin 2) * 1 + 1 * 0 = 0; omega
  | ⟨1, _⟩ => show win0_4.index t (1 : Fin 2) * 128 + 1 * f.val = f.val; omega

/-! ## What a point writes back -/

/-- Entry `(0, r, c', f)` of the body's output block at the point with block coordinates (i, j) is entry
    `(128 · i + r, 256 · j + c', f)` of the pair array. -/
theorem block_entry (c : Dev nD) (t : Fin cfg0.N) (r : Fin 128) (c' : Fin 256) (f : Fin 128) (i j : Fin 768)
    (hi : i.val = win0_5.index t (1 : Fin 4) * 128 + r.val) (hj : j.val = win0_5.index t (2 : Fin 4) * 256 + c'.val) :
    blockOut (iblk m c 0 t) (iblk m c 1 t) (iblk m c 2 t) (iblk m c 3 t) (iblk m c 4 t) (ix4 (0 : Fin 1) r c' f)
      = Cert.PairSum.pairAt (m ((c : Thread nD τ).loc main_arg0)) (m ((c : Thread nD τ).loc main_arg2))
          (m ((c : Thread nD τ).loc main_arg3)) i j f := by
  refine (Cert.PairSum.BlockValue.blockOut_apply (iblk m c 0 t) (iblk m c 1 t) (iblk m c 2 t) (iblk m c 3 t) (iblk m c 4 t) r c' f).trans ?_
  unfold Cert.PairSum.pairAt Cert.PairSum.projLo Cert.PairSum.projHi
  refine congrArg₂ (· + ·) (Finset.sum_congr rfl fun d _ => ?_)
    (congrArg₂ (· + ·) (Finset.sum_congr rfl fun d _ => ?_) (iblk4_apply m c t f))
  · exact congrArg₂ (· * ·) (iblk0_apply m c t r d i hi) (iblk2_apply m c t d f)
  · exact congrArg₂ (· * ·) (iblk1_apply m c t c' d j hj) (iblk3_apply m c t d f)

/-- The same at any index `y` of the block and the index `k` of the array it sits at. -/
theorem block_at (c : Dev nD) (t : Fin cfg0.N) (y : S1x128x256x128.Idx) (k : S1x768x768x128.Idx)
    (h1 : (k 1).val = win0_5.index t (1 : Fin 4) * 128 + (y 1).val)
    (h2 : (k 2).val = win0_5.index t (2 : Fin 4) * 256 + (y 2).val) (h3 : (k 3).val = (y 3).val) :
    blockOut (iblk m c 0 t) (iblk m c 1 t) (iblk m c 2 t) (iblk m c 3 t) (iblk m c 4 t) y = pairOf m c k := by
  obtain ⟨z, r, c', f, rfl⟩ : ∃ (z : Fin 1) (r : Fin 128) (c' : Fin 256) (f : Fin 128), y = ix4 z r c' f :=
    ⟨y 0, y 1, y 2, y 3, eq_ix4 y⟩
  obtain rfl : z = 0 := Subsingleton.elim _ _
  have hf : (k 3 : Fin 128) = f := Fin.ext h3
  refine (block_entry m c t r c' f (k 1) (k 2) h1 h2).trans ?_
  show Cert.PairSum.pairAt _ _ _ (k 1) (k 2) f = Cert.PairSum.pairAt _ _ _ (k 1) (k 2) (k 3)
  rw [hf]

variable {c : Dev nD} (dat : Dat τ (Elt Ideal) Unit ℕ (UR sig nD τ) ℕ cfg0 c)

/-- WHAT POINT `t` WRITES BACK is block `t` of the pair array. -/
theorem flushed_eq
    (hafter : ∀ t, dat.after 5 t = blockOut (iblk m c 0 t) (iblk m c 1 t) (iblk m c 2 t) (iblk m c 3 t) (iblk m c 4 t))
    (t : Fin cfg0.N) : dat.flushed 5 t = ((cfg0.win 5).blk t).view.read (Elt Ideal) (pairOf m c) := by
  show (cfg0.win 5).cut (grid0.coords t) (dat.after 5 t) = _
  rw [hafter]
  funext y
  show blockOut (iblk m c 0 t) (iblk m c 1 t) (iblk m c 2 t) (iblk m c 3 t) (iblk m c 4 t) y
    = pairOf m c (((cfg0.win 5).blk t).view.emb y)
  refine block_at m c t y _ ?_ ?_ ?_
  · show win0_5.index t (1 : Fin 4) * 128 + 1 * (y 1).val = _; omega
  · show win0_5.index t (2 : Fin 4) * 256 + 1 * (y 2).val = _; omega
  · show win0_5.index t (3 : Fin 4) * 128 + 1 * (y 3).val = (y 3).val
    have := (idx_facts t).2.1
    omega

/-! ## The blocks cover the pair array -/

/-- An index of the array is in point `t`'s block iff each coordinate is in the block's range on its axis. -/
theorem mem_blk (t : Fin cfg0.N) (i : S1x768x768x128.Idx) :
    i ∈ ((cfg0.win 5).blk t).view.set ↔ ∀ a : Fin 4, win0_5.index t a * S1x128x256x128.size a ≤ (i a).val ∧ (i a).val < win0_5.index t a * S1x128x256x128.size a + S1x128x256x128.size a := by
  show i ∈ ((View.whole main_v3).slice (win0_5.rect t)).set ↔ _
  rw [View.set_slice_whole, Rect.mem_set_unit]
  exact Iff.rfl

/-- Entry `(0, p, q, f)` lies in the block of the point with block coordinates (p / 128, q / 256), and every point
    writes its block back. -/
theorem cover (i : S1x768x768x128.Idx) :
    ∃ t : Fin cfg0.N, (cfg0.win 5).flush t = true ∧ i ∈ ((cfg0.win 5).blk t).view.set := by
  have hi0 : (i 0).val < 1 := (i 0).isLt
  have hi1 : (i 1).val < 768 := (i 1).isLt
  have hi2 : (i 2).val < 768 := (i 2).isLt
  have hi3 : (i 3).val < 128 := (i 3).isLt
  obtain ⟨t, ht⟩ := idx_onto ⟨(i 1).val / 128, by omega⟩ ⟨(i 2).val / 256, by omega⟩
  have q0 : win0_5.index t (0 : Fin 4) = 0 := congrFun ht 0
  have q1 : win0_5.index t (1 : Fin 4) = (i 1).val / 128 := congrFun ht 1
  have q2 : win0_5.index t (2 : Fin 4) = (i 2).val / 256 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 128 ≤ (i 1).val ∧ (i 1).val < win0_5.index t (1 : Fin 4) * 128 + 128; omega
  | ⟨2, _⟩ => show win0_5.index t (2 : Fin 4) * 256 ≤ (i 2).val ∧ (i 2).val < win0_5.index t (2 : Fin 4) * 256 + 256; omega
  | ⟨3, _⟩ => show win0_5.index t (3 : Fin 4) * 128 ≤ (i 3).val ∧ (i 3).val < win0_5.index t (3 : Fin 4) * 128 + 128; omega

/-! ## The array after the run -/

/-- If every point writes back its block of the pair array, the result array ends holding the pair array. -/
theorem final_of_flushed
    (hflushed : ∀ t : Fin cfg0.N, dat.flushed 5 t = ((cfg0.win 5).blk t).view.read (Elt Ideal) (pairOf m c)) :
    dat.arrAt 5 cfg0.N = pairOf m c :=
  dat.arrAt_eq_of_cover 5 (pairOf m c) (fun t _ => hflushed t) cover

/-- THE RESULT ARRAY after the run is the pair array of the launched arguments. -/
theorem final
    (hafter : ∀ t, dat.after 5 t = blockOut (iblk m c 0 t) (iblk m c 1 t) (iblk m c 2 t) (iblk m c 3 t) (iblk m c 4 t)) :
    dat.arrAt 5 cfg0.N = pairOf m c :=
  final_of_flushed m dat (flushed_eq m dat hafter)

end Cert.KernelIdeal.Frm

end
-- ==== Proof.IdealValue.lean ====
/-
  The idealized pair-update program's run with its result named. The output array is written back block by block, one
  block per grid point, and the blocks tile it; each block is the pair function restricted to the block's rows and
  columns. So after the run the output array is the pair function of the row array, the weights and the bias as launched.
-/
import proofs.«122135_j48524540510542_2_alg».proof.Proof.IdealFrame
import proofs.«122135_j48524540510542_2_alg».proof.Proof.BlocksToArray

noncomputable section

namespace Cert.KernelIdeal.Frm

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Every weakly fair execution of the idealized program ends with the output array at the pair function of the launch
    contents and the argument arrays unchanged. -/
theorem run_value : θ_run defs (onTc (τ := τ) (main (F := Ideal))) ⟨m, fun _ => 0, ρ⟩ (fun r => ∀ c : Dev nD,
      r.2.mem ((c.tc : Thread nD τ).loc main_v3) = pairOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 5).trans (final m (dats m 0 c) (after5 m c)),
      ((h c).1 0).trans (((dats m 0 c).arrAt_in 0 rfl _).trans ((A_eq m c 0).trans (V_main_arg0 m c))),
      ((h c).2 main_arg1 (Pipeline.mem_restRefs_of main_arg1 rfl (by decide))).trans (V_main_arg1 m c),
      ((h c).2 main_arg2 (Pipeline.mem_restRefs_of main_arg2 rfl (by decide))).trans (V_main_arg2 m c),
      ((h c).2 main_arg3 (Pipeline.mem_restRefs_of main_arg3 rfl (by decide))).trans (V_main_arg3 m c)⟩) (run_main m ρ)

end Cert.KernelIdeal.Frm

end
-- ==== Proof.RefSide.lean ====
/-
  The reference program computes the pair array. Its twelve operations are two row slices of the weights, two
  contractions of the rows against the halves, broadcasts that place the first projection along the second pair axis
  and the second along the first, a sum of the two, and a sum with the bias broadcast over every other axis. Read at one
  index (0, i, j, f) the chain is

      ((∑ d, s[0,i,d] · W[d,f]) + (∑ d, s[0,j,d] · W[384+d,f])) + b[f],

  and the pair array groups the same three summands to the right; addition of extended reals is associative.
-/
import proofs.«122135_j48524540510542_2_alg».proof.Proof.Gen.ReferenceIdeal.Read
import proofs.«122135_j48524540510542_2_alg».proof.Proof.PairSpec

noncomputable section

open scoped BigOperators

namespace Cert.PairSum.RefSide

open Cert.ReferenceIdeal Cert.ReferenceIdeal.Gen Cert.ReferenceIdeal.Read Idealize.ShloMosaic Idealize.ShloMosaic.ValueIdx

/-- The reference's result at the index (z, i, j, f) is the pair array's entry (i, j, f). -/
theorem ref_at (x0 : (⟨S1x768x384, .f32⟩ : BufTy).Contents (Elt Ideal)) (x2 : (⟨S768x128, .f32⟩ : BufTy).Contents (Elt Ideal))
    (x3 : (⟨S128, .f32⟩ : BufTy).Contents (Elt Ideal)) (z : Fin 1) (i j : Fin 768) (f : Fin 128) :
    val_main_v11 (F := Ideal) x0 x2 x3 (ix4 z i j f) = Cert.PairSum.pairAt x0 x2 x3 i j f := by
  rw [val_main_v11_apply, val_main_v8_apply, val_main_v6_apply, val_main_v4_apply, val_main_v2_apply,
    val_main_v7_apply, val_main_v5_apply, val_main_v3_apply, val_main_v10_apply, val_main_v9_apply]
  rw [Ideal.addf_def, Ideal.addf_def, add_assoc]
  unfold Cert.PairSum.pairAt Cert.PairSum.projLo Cert.PairSum.projHi
  refine congrArg₂ (· + ·) (Finset.sum_congr rfl fun k _ => ?_)
    (congrArg₂ (· + ·) (Finset.sum_congr rfl fun k _ => ?_) (congrArg x3 ?_))
  · rw [val_main_v0_apply]
    refine congrArg₂ (· * ·) (congrArg x0 ?_) (congrArg x2 ?_)
    · funext a
      match a with
      | ⟨0, _⟩ => rfl
      | ⟨1, _⟩ => rfl
      | ⟨2, _⟩ => rfl
    · funext a
      match a with
      | ⟨0, _⟩ => rfl
      | ⟨1, _⟩ => rfl
  · rw [val_main_v1_apply]
    refine congrArg₂ (· * ·) (congrArg x0 ?_) (congrArg x2 ?_)
    · funext a
      match a with
      | ⟨0, _⟩ => rfl
      | ⟨1, _⟩ => rfl
      | ⟨2, _⟩ => rfl
    · funext a
      match a with
      | ⟨0, _⟩ => rfl
      | ⟨1, _⟩ => rfl
  · funext a
    match a with
    | ⟨0, _⟩ => rfl

/-- The reference's result is the pair array. -/
theorem ref_eq (x0 : (⟨S1x768x384, .f32⟩ : BufTy).Contents (Elt Ideal)) (x2 : (⟨S768x128, .f32⟩ : BufTy).Contents (Elt Ideal))
    (x3 : (⟨S128, .f32⟩ : BufTy).Contents (Elt Ideal)) :
    val_main_v11 (F := Ideal) x0 x2 x3 = Cert.PairSum.pair x0 x2 x3 := by
  funext idx
  rw [eq_ix4 idx]
  exact ref_at x0 x2 x3 (idx 0) (idx 1) (idx 2) (idx 3)

end Cert.PairSum.RefSide

end
-- ==== Proof.lean ====
/-
  The claim: the pair-update kernel against its reference.

  Both programs compute, for a row array `s` of 768 rows of 384 numbers, a weight matrix `W` of 768 rows read as an upper
  and a lower half of 384 rows each, and a bias `b` of 128 features,

      out[0, i, j, f] = (∑ d, s[0,i,d] · W[d,f]) + (∑ d, s[0,j,d] · W[384+d,f]) + b[f]

  (the pair array `z` is an argument of both and is read by neither). The kernel tiles the 768 × 768 pairs into 6 × 3
  blocks of 128 × 256; at each block it projects the block's 128 rows through the upper half and the block's 256 columns'
  rows through the lower half (two matrix products into zero accumulators, the operands rounded to a shorter format,
  which over the extended reals is no change), adds the bias to the second projection, and writes the block eight row
  planes at a time as "first projection spread over the columns" plus "second projection spread over the rows". The
  reference forms the two 768 × 128 projections once, adds them spread over rows and columns, then adds the bias. Entry
  by entry the kernel's value is `L + (R + b)` and the reference's `(L + R) + b` with the same two sums `L` and `R`:
  addition of extended reals is associative, so they are equal at every input, finite or not.

  The frames: each program terminates without a fault and leaves its four arguments as launched. The two kernel
  programs (the one read over machine words and its reading over the extended reals have the same text) hand the row
  array to the region through two windows; its full share is dealt in halves between them, every other array is held
  whole, and the body's loop of sixteen trips is run once at a symbolic trip. The reference's frame is its run with the
  result dropped. Nothing was rewritten by the idealization, so there is nothing for it to preserve.
-/
import proofs.«122135_j48524540510542_2_alg».proof.Defs
import proofs.«122135_j48524540510542_2_alg».proof.Proof.Gen.Kernel
import proofs.«122135_j48524540510542_2_alg».proof.Proof.Gen.KernelIdeal
import proofs.«122135_j48524540510542_2_alg».proof.Proof.Gen.ReferenceIdeal
import proofs.«122135_j48524540510542_2_alg».proof.Proof.Gen.Pre_finite_inputs
import proofs.«122135_j48524540510542_2_alg».proof.Proof.Gen.ReferenceIdeal.Run
import proofs.«122135_j48524540510542_2_alg».proof.Proof.Gen.ReferenceIdeal.Read
import proofs.«122135_j48524540510542_2_alg».proof.Proof.BitsFrame
import proofs.«122135_j48524540510542_2_alg».proof.Proof.IdealFrame
import proofs.«122135_j48524540510542_2_alg».proof.Proof.IdealValue
import proofs.«122135_j48524540510542_2_alg».proof.Proof.RefSide
import Idealize.ShloMosaic.Adequacy
import Idealize.ShloMosaic.Init

noncomputable section

namespace Cert.Proof

open Idealize.ShloMosaic Idealize.ShloMosaic.TcCoe Idealize.SL.Sem

/-- The kernel, read over machine words, runs and leaves its arguments unchanged. -/
theorem frame_kernel : Cert.frame_Kernel := fun m ρ _ => Cert.Kernel.Frm.frame m ρ

/-- The kernel, read over the extended reals, runs and leaves its arguments unchanged. -/
theorem frame_kernelIdeal : Cert.frame_KernelIdeal := fun m ρ _ => Cert.KernelIdeal.Frm.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's output array and the reference's result are the one pair function of arguments
    that agree: the kernel's by its run read block by block, the reference's by its operations read at an index and the
    associativity of addition. -/
theorem algebraic : Cert.algebraic_KernelIdeal_ReferenceIdeal := by
  intro m ρ m' ρ' _ hagree
  refine ⟨fun c => Cert.KernelIdeal.Frm.pairOf m c, Cert.KernelIdeal.Frm.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.PairSum.RefSide.ref_eq, (hagree c).1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
